-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64x64 : Shape := ⟨5, ![4, 64, 64, 64, 64]⟩
abbrev S_ : Shape := ⟨0, ![]⟩

class Facts : Prop where
  bcast_S_S4x64x64x64x64 : S_.BroadcastsInDim S4x64x64x64x64 (![] : Fin 0 → Fin S4x64x64x64x64.rank)
  reducesTo_S4x64x64x64x64_S_d0_1_2_3_4 : S4x64x64x64x64.ReducesTo [0, 1, 2, 3, 4] S_
  h_S_ : 0 < S_.numel

variable [Facts]

def fn {F : FTy → Type} [FloatOps F] (main_arg0 : FVec F S4x64x64x64x64 .f32) : IVec S_ 1 :=
  let main_v0 : FVec F S4x64x64x64x64 .f32 := Host.absf main_arg0
  let main_cst : FVec F S_ .f32 := constant S_ .f32 0x7F800000#32
  let main_v1 : FVec F S4x64x64x64x64 .f32 := broadcastInDim S4x64x64x64x64 ![] bcast_S_S4x64x64x64x64 main_cst
  let main_v2 : IVec S4x64x64x64x64 1 := cmpf .olt main_v0 main_v1
  let main_c : IVec S_ 1 := constantI S_ 1 1#1
  let main_v3 : IVec S_ 1 := (fun x v => Host.reduce IntOp.andi x v reducesTo_S4x64x64x64x64_S_d0_1_2_3_4 h_S_) main_v2 main_c
  main_v3
-- ==== Kernel.lean ====
abbrev S4x64x64x64x64 : Shape := ⟨5, ![4, 64, 64, 64, 64]⟩
abbrev S4x64x64x4096 : Shape := ⟨4, ![4, 64, 64, 4096]⟩
abbrev S4x1x1x1x64 : Shape := ⟨5, ![4, 1, 1, 1, 64]⟩
abbrev S4x2x2x2x64 : Shape := ⟨5, ![4, 2, 2, 2, 64]⟩
abbrev S4x4x4x4x64 : Shape := ⟨5, ![4, 4, 4, 4, 64]⟩
abbrev S1x16x64x4096 : Shape := ⟨4, ![1, 16, 64, 4096]⟩
abbrev S1x1x1x1x64 : Shape := ⟨5, ![1, 1, 1, 1, 64]⟩
abbrev S1x1x2x2x64 : Shape := ⟨5, ![1, 1, 2, 2, 64]⟩
abbrev S1x1x4x4x64 : Shape := ⟨5, ![1, 1, 4, 4, 64]⟩
abbrev S16x64x4096 : Shape := ⟨3, ![16, 64, 4096]⟩
abbrev S64x4096 : Shape := ⟨2, ![64, 4096]⟩
abbrev S4x16x4x16x64 : Shape := ⟨5, ![4, 16, 4, 16, 64]⟩
abbrev S4x16x4x64 : Shape := ⟨4, ![4, 16, 4, 64]⟩
abbrev S4x4x64 : Shape := ⟨3, ![4, 4, 64]⟩
abbrev S2x2x4x64 : Shape := ⟨4, ![2, 2, 4, 64]⟩
abbrev S2x4x64 : Shape := ⟨3, ![2, 4, 64]⟩
abbrev S2x2x2x64 : Shape := ⟨4, ![2, 2, 2, 64]⟩
abbrev S2x2x64 : Shape := ⟨3, ![2, 2, 64]⟩
abbrev S1x2x2x64 : Shape := ⟨4, ![1, 2, 2, 64]⟩
abbrev S1x2x64 : Shape := ⟨3, ![1, 2, 64]⟩
abbrev S1x1x2x64 : Shape := ⟨4, ![1, 1, 2, 64]⟩
abbrev S1x1x64 : Shape := ⟨3, ![1, 1, 64]⟩
abbrev S1x1x1x64 : Shape := ⟨4, ![1, 1, 1, 64]⟩
abbrev S1x4x4x64 : Shape := ⟨4, ![1, 4, 4, 64]⟩
abbrev S4x64 : Shape := ⟨2, ![4, 64]⟩
abbrev S4x512 : Shape := ⟨2, ![4, 512]⟩
abbrev S4x4096 : Shape := ⟨2, ![4, 4096]⟩
abbrev S4x4672 : Shape := ⟨2, ![4, 4672]⟩

abbrev nBuf : Space → Nat
  | .hbm => 9
  | .vmem => 8
  | .smem => 0
  | _ => 0

abbrev bufTy : (tb : Table) → Fin (tcTables nBuf tb) → BufTy
  | .hbm, ⟨0, _⟩ => ⟨S4x64x64x64x64, .f32⟩
  | .hbm, ⟨1, _⟩ => ⟨S4x64x64x4096, .f32⟩
  | .hbm, ⟨2, _⟩ => ⟨S4x1x1x1x64, .f32⟩
  | .hbm, ⟨3, _⟩ => ⟨S4x2x2x2x64, .f32⟩
  | .hbm, ⟨4, _⟩ => ⟨S4x4x4x4x64, .f32⟩
  | .hbm, ⟨5, _⟩ => ⟨S4x64, .f32⟩
  | .hbm, ⟨6, _⟩ => ⟨S4x512, .f32⟩
  | .hbm, ⟨7, _⟩ => ⟨S4x4096, .f32⟩
  | .hbm, ⟨8, _⟩ => ⟨S4x4672, .f32⟩
  | .local _ .vmem, ⟨0, _⟩ => ⟨S1x16x64x4096, .f32⟩
  | .local _ .vmem, ⟨1, _⟩ => ⟨S1x16x64x4096, .f32⟩
  | .local _ .vmem, ⟨2, _⟩ => ⟨S1x1x1x1x64, .f32⟩
  | .local _ .vmem, ⟨3, _⟩ => ⟨S1x1x1x1x64, .f32⟩
  | .local _ .vmem, ⟨4, _⟩ => ⟨S1x1x2x2x64, .f32⟩
  | .local _ .vmem, ⟨5, _⟩ => ⟨S1x1x2x2x64, .f32⟩
  | .local _ .vmem, ⟨6, _⟩ => ⟨S1x1x4x4x64, .f32⟩
  | .local _ .vmem, ⟨7, _⟩ => ⟨S1x1x4x4x64, .f32⟩
  | _, _ => ⟨S4x64x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c4_i32 : BitVec 32 := 4#32
  let c0_i32 : BitVec 32 := 0#32
  let v14 : BitVec 1 := Scalar.cmpi .eq c4_i32 c0_i32
  let c1_i32 : BitVec 32 := 1#32
  let v15 : BitVec 32 := Scalar.select v14 c1_i32 c4_i32
  let v16 : BitVec 32 := Scalar.remsi arg1 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let c0_i32_12 : BitVec 32 := 0#32
  let v24 : BitVec 1 := Scalar.cmpi .eq v23 c0_i32_12
  let v25 : BitVec 32 := Scalar.extui v24
  let c0_i32_13 : BitVec 32 := 0#32
  let v26 : BitVec 1 := Scalar.cmpi .ne v25 c0_i32_13
  v26

def k0_cond2 (i : grid0.Coords) : BitVec 1 :=
  let arg1 : BitVec 32 := BitVec.ofNat 32 (i 1).val
  let c4_i32 : BitVec 32 := 4#32
  let c0_i32 : BitVec 32 := 0#32
  let v14 : BitVec 1 := Scalar.cmpi .eq c4_i32 c0_i32
  let c1_i32 : BitVec 32 := 1#32
  let v15 : BitVec 32 := Scalar.select v14 c1_i32 c4_i32
  let v16 : BitVec 32 := Scalar.remsi arg1 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let c0_i32_14 : BitVec 32 := 0#32
  let v27 : BitVec 1 := Scalar.cmpi .ne v23 c0_i32_14
  let v28 : BitVec 32 := Scalar.extui v27
  let c0_i32_15 : BitVec 32 := 0#32
  let v29 : BitVec 1 := Scalar.cmpi .ne v28 c0_i32_15
  v29

def k0_cond3 (i : grid0.Coords) : BitVec 1 :=
  let arg1 : BitVec 32 := BitVec.ofNat 32 (i 1).val
  let c2_i32 : BitVec 32 := 2#32
  let c0_i32_16 : BitVec 32 := 0#32
  let v30 : BitVec 1 := Scalar.cmpi .eq c2_i32 c0_i32_16
  let c1_i32_17 : BitVec 32 := 1#32
  let v31 : BitVec 32 := Scalar.select v30 c1_i32_17 c2_i32
  let v32 : BitVec 32 := Scalar.remsi arg1 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c0_i32_21 : BitVec 32 := 0#32
  let v40 : BitVec 1 := Scalar.cmpi .eq v39 c0_i32_21
  let v41 : BitVec 32 := Scalar.extui v40
  let c0_i32_22 : BitVec 32 := 0#32
  let v42 : BitVec 1 := Scalar.cmpi .ne v41 c0_i32_22
  v42

def k0_cond4 (i : grid0.Coords) : BitVec 1 :=
  let arg1 : BitVec 32 := BitVec.ofNat 32 (i 1).val
  let c2_i32 : BitVec 32 := 2#32
  let c0_i32_16 : BitVec 32 := 0#32
  let v30 : BitVec 1 := Scalar.cmpi .eq c2_i32 c0_i32_16
  let c1_i32_17 : BitVec 32 := 1#32
  let v31 : BitVec 32 := Scalar.select v30 c1_i32_17 c2_i32
  let v32 : BitVec 32 := Scalar.remsi arg1 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c0_i32_23 : BitVec 32 := 0#32
  let v43 : BitVec 1 := Scalar.cmpi .ne v39 c0_i32_23
  let v44 : BitVec 32 := Scalar.extui v43
  let c0_i32_24 : BitVec 32 := 0#32
  let v45 : BitVec 1 := Scalar.cmpi .ne v44 c0_i32_24
  v45

def k0_cond5 (i : grid0.Coords) : BitVec 1 :=
  let arg1 : BitVec 32 := BitVec.ofNat 32 (i 1).val
  let c1_i32_25 : BitVec 32 := 1#32
  let c0_i32_26 : BitVec 32 := 0#32
  let v46 : BitVec 1 := Scalar.cmpi .eq c1_i32_25 c0_i32_26
  let c1_i32_27 : BitVec 32 := 1#32
  let v47 : BitVec 32 := Scalar.select v46 c1_i32_27 c1_i32_25
  let v48 : BitVec 32 := Scalar.remsi arg1 v47
  let c0_i32_29 : BitVec 32 := 0#32
  let v50 : BitVec 1 := Scalar.cmpi .slt v48 c0_i32_29
  let c0_i32_30 : BitVec 32 := 0#32
  let v51 : BitVec 1 := Scalar.cmpi .slt v47 c0_i32_30
  let v52 : BitVec 1 := Scalar.xori v50 v51
  let c0_i32_28 : BitVec 32 := 0#32
  let v49 : BitVec 1 := Scalar.cmpi .ne v48 c0_i32_28
  let v53 : BitVec 1 := Scalar.andi v52 v49
  let v54 : BitVec 32 := Scalar.addi v48 v47
  let v55 : BitVec 32 := Scalar.select v53 v54 v48
  let c0_i32_31 : BitVec 32 := 0#32
  let v56 : BitVec 1 := Scalar.cmpi .eq v55 c0_i32_31
  let v57 : BitVec 32 := Scalar.extui v56
  let c0_i32_32 : BitVec 32 := 0#32
  let v58 : BitVec 1 := Scalar.cmpi .ne v57 c0_i32_32
  v58

def k0_cond6 (i : grid0.Coords) : BitVec 1 :=
  let arg1 : BitVec 32 := BitVec.ofNat 32 (i 1).val
  let c1_i32_25 : BitVec 32 := 1#32
  let c0_i32_26 : BitVec 32 := 0#32
  let v46 : BitVec 1 := Scalar.cmpi .eq c1_i32_25 c0_i32_26
  let c1_i32_27 : BitVec 32 := 1#32
  let v47 : BitVec 32 := Scalar.select v46 c1_i32_27 c1_i32_25
  let v48 : BitVec 32 := Scalar.remsi arg1 v47
  let c0_i32_29 : BitVec 32 := 0#32
  let v50 : BitVec 1 := Scalar.cmpi .slt v48 c0_i32_29
  let c0_i32_30 : BitVec 32 := 0#32
  let v51 : BitVec 1 := Scalar.cmpi .slt v47 c0_i32_30
  let v52 : BitVec 1 := Scalar.xori v50 v51
  let c0_i32_28 : BitVec 32 := 0#32
  let v49 : BitVec 1 := Scalar.cmpi .ne v48 c0_i32_28
  let v53 : BitVec 1 := Scalar.andi v52 v49
  let v54 : BitVec 32 := Scalar.addi v48 v47
  let v55 : BitVec 32 := Scalar.select v53 v54 v48
  let c0_i32_33 : BitVec 32 := 0#32
  let v59 : BitVec 1 := Scalar.cmpi .ne v55 c0_i32_33
  let v60 : BitVec 32 := Scalar.extui v59
  let c0_i32_34 : BitVec 32 := 0#32
  let v61 : BitVec 1 := Scalar.cmpi .ne v60 c0_i32_34
  v61

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![arg0.toNat, v16.toNat, c0_i32_4.toNat, c0_i32_5.toNat, c0_i32_6.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![arg0.toNat, v16.toNat, c0_i32_4.toNat, c0_i32_5.toNat, c0_i32_6.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![arg0.toNat, v16.toNat, c0_i32_5.toNat, c0_i32_6.toNat, c0_i32_7.toNat]

abbrev stage0_0 : Fin 2 → Memref sig .tc .vmem S1x16x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2x2x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x4x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x64x64x64x64_S4x64x64x4096 : S4x64x64x64x64.ShapeCasts S4x64x64x4096
  inb_S1x16x64x4096_S1x16x64x4096_0_0_0_0 : ∀ a, (![0, 0, 0, 0] : Fin 4 → Nat) a + S1x16x64x4096.size a ≤ S1x16x64x4096.size a
  h_S1x16x64x4096 : 0 < S1x16x64x4096.numel
  shapeCasts_S1x16x64x4096_S16x64x4096 : S1x16x64x4096.ShapeCasts S16x64x4096
  reduces_S16x64x4096_S64x4096 : S16x64x4096.Reduces [0] S64x4096
  shapeCasts_S64x4096_S4x16x4x16x64 : S64x4096.ShapeCasts S4x16x4x16x64
  reduces_S4x16x4x16x64_S4x16x4x64 : S4x16x4x16x64.Reduces [3] S4x16x4x64
  reduces_S4x16x4x64_S4x4x64 : S4x16x4x64.Reduces [1] S4x4x64
  shapeCasts_S4x4x64_S2x2x4x64 : S4x4x64.ShapeCasts S2x2x4x64
  reduces_S2x2x4x64_S2x4x64 : S2x2x4x64.Reduces [1] S2x4x64
  shapeCasts_S2x4x64_S2x2x2x64 : S2x4x64.ShapeCasts S2x2x2x64
  reduces_S2x2x2x64_S2x2x64 : S2x2x2x64.Reduces [2] S2x2x64
  shapeCasts_S2x2x64_S1x2x2x64 : S2x2x64.ShapeCasts S1x2x2x64
  reduces_S1x2x2x64_S1x2x64 : S1x2x2x64.Reduces [1] S1x2x64
  shapeCasts_S1x2x64_S1x1x2x64 : S1x2x64.ShapeCasts S1x1x2x64
  reduces_S1x1x2x64_S1x1x64 : S1x1x2x64.Reduces [2] S1x1x64
  shapeCasts_S1x1x64_S1x1x1x64 : S1x1x64.ShapeCasts S1x1x1x64
  inb_S1x1x1x1x64_S1x1x1x1x64_0_0_0_0_0 : ∀ a, (![0, 0, 0, 0, 0] : Fin 5 → Nat) a + S1x1x1x1x64.size a ≤ S1x1x1x1x64.size a
  h_S1x1x1x1x64 : 0 < S1x1x1x1x64.numel
  shapeCasts_S1x1x1x1x64_S1x1x1x64 : S1x1x1x1x64.ShapeCasts S1x1x1x64
  shapeCasts_S1x1x1x64_S1x1x1x1x64 : S1x1x1x64.ShapeCasts S1x1x1x1x64
  inb_S1x1x2x2x64_S1x1x2x2x64_0_0_0_0_0 : ∀ a, (![0, 0, 0, 0, 0] : Fin 5 → Nat) a + S1x1x2x2x64.size a ≤ S1x1x2x2x64.size a
  h_S1x1x2x2x64 : 0 < S1x1x2x2x64.numel
  shapeCasts_S1x1x2x2x64_S1x2x2x64 : S1x1x2x2x64.ShapeCasts S1x2x2x64
  shapeCasts_S1x2x2x64_S1x1x2x2x64 : S1x2x2x64.ShapeCasts S1x1x2x2x64
  shapeCasts_S4x4x64_S1x4x4x64 : S4x4x64.ShapeCasts S1x4x4x64
  inb_S1x1x4x4x64_S1x1x4x4x64_0_0_0_0_0 : ∀ a, (![0, 0, 0, 0, 0] : Fin 5 → Nat) a + S1x1x4x4x64.size a ≤ S1x1x4x4x64.size a
  h_S1x1x4x4x64 : 0 < S1x1x4x4x64.numel
  shapeCasts_S1x1x4x4x64_S1x4x4x64 : S1x1x4x4x64.ShapeCasts S1x4x4x64
  shapeCasts_S1x4x4x64_S1x1x4x4x64 : S1x4x4x64.ShapeCasts S1x1x4x4x64
  shapeCasts_S4x1x1x1x64_S4x64 : S4x1x1x1x64.ShapeCasts S4x64
  shapeCasts_S4x2x2x2x64_S4x512 : S4x2x2x2x64.ShapeCasts S4x512
  shapeCasts_S4x4x4x4x64_S4x4096 : S4x4x4x4x64.ShapeCasts S4x4096
  concatenates_S4x64_S4x512_S4x4096_S4x4672_d1 : Shape.Concatenates [S4x64, S4x512, S4x4096] S4x4672 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64x4096.size a ≤ S4x64x64x4096.size a
  hwx0_0 : ∀ i : grid0.Coords, EltTy.bits .f32 = 32 ∨ (Rect.block (s := S4x64x64x4096) S1x16x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1x64.size a ≤ S4x1x1x1x64.size a
  hwx0_1 : ∀ i : grid0.Coords, EltTy.bits .f32 = 32 ∨ (Rect.block (s := S4x1x1x1x64) S1x1x1x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2x2x64.size a ≤ S4x2x2x2x64.size a
  hwx0_2 : ∀ i : grid0.Coords, EltTy.bits .f32 = 32 ∨ (Rect.block (s := S4x2x2x2x64) S1x1x2x2x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4x4x64.size a ≤ S4x4x4x4x64.size a
  hwx0_3 : ∀ i : grid0.Coords, EltTy.bits .f32 = 32 ∨ (Rect.block (s := S4x4x4x4x64) S1x1x4x4x64.size (cc0_transform_3 i) (hinb0_3 i)).WholeWords (EltTy.packing .f32)

variable [Facts₀]

abbrev win0_0 : Pipeline.Window sig grid0 :=
  Pipeline.Window.ofSpec (Memref.whole main_v0) S1x16x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1x1x1x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1x2x2x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S1x1x4x4x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun i => !(k0_cond1 i == 1#1) && !(k0_cond2 i == 1#1) | 2 => fun i => !(k0_cond3 i == 1#1) && !(k0_cond4 i == 1#1) | 3 => fun i => !(k0_cond5 i == 1#1) && !(k0_cond6 i == 1#1) | ⟨_ + 4, h⟩ => absurd h (Nat.not_lt.2 (Nat.le_add_left _ _))

class Facts : Prop extends Facts₀ where

variable [Facts]
-- ==== ReferenceIdeal.lean ====
abbrev S4x64x64x64x64 : Shape := ⟨5, ![4, 64, 64, 64, 64]⟩
abbrev S4x1x64x1x64x1x64x64 : Shape := ⟨8, ![4, 1, 64, 1, 64, 1, 64, 64]⟩
abbrev S_ : Shape := ⟨0, ![]⟩
abbrev S4x1x1x1x64 : Shape := ⟨5, ![4, 1, 1, 1, 64]⟩
abbrev S4x64 : Shape := ⟨2, ![4, 64]⟩
abbrev S4x2x32x2x32x2x32x64 : Shape := ⟨8, ![4, 2, 32, 2, 32, 2, 32, 64]⟩
abbrev S4x2x2x2x64 : Shape := ⟨5, ![4, 2, 2, 2, 64]⟩
abbrev S4x512 : Shape := ⟨2, ![4, 512]⟩
abbrev S4x4x16x4x16x4x16x64 : Shape := ⟨8, ![4, 4, 16, 4, 16, 4, 16, 64]⟩
abbrev S4x4x4x4x64 : Shape := ⟨5, ![4, 4, 4, 4, 64]⟩
abbrev S4x4096 : Shape := ⟨2, ![4, 4096]⟩
abbrev S4x4672 : Shape := ⟨2, ![4, 4672]⟩

abbrev nBuf : Space → Nat
  | .hbm => 14
  | .vmem => 0
  | .smem => 0
  | _ => 0

abbrev bufTy : (tb : Table) → Fin (tcTables nBuf tb) → BufTy
  | .hbm, ⟨0, _⟩ => ⟨S4x64x64x64x64, .f32⟩
  | .hbm, ⟨1, _⟩ => ⟨S4x1x64x1x64x1x64x64, .f32⟩
  | .hbm, ⟨2, _⟩ => ⟨S_, .f32⟩
  | .hbm, ⟨3, _⟩ => ⟨S4x1x1x1x64, .f32⟩
  | .hbm, ⟨4, _⟩ => ⟨S4x64, .f32⟩
  | .hbm, ⟨5, _⟩ => ⟨S4x2x32x2x32x2x32x64, .f32⟩
  | .hbm, ⟨6, _⟩ => ⟨S_, .f32⟩
  | .hbm, ⟨7, _⟩ => ⟨S4x2x2x2x64, .f32⟩
  | .hbm, ⟨8, _⟩ => ⟨S4x512, .f32⟩
  | .hbm, ⟨9, _⟩ => ⟨S4x4x16x4x16x4x16x64, .f32⟩
  | .hbm, ⟨10, _⟩ => ⟨S_, .f32⟩
  | .hbm, ⟨11, _⟩ => ⟨S4x4x4x4x64, .f32⟩
  | .hbm, ⟨12, _⟩ => ⟨S4x4096, .f32⟩
  | .hbm, ⟨13, _⟩ => ⟨S4x4672, .f32⟩
  | _, _ => ⟨S4x64x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S4x64x64x64x64_S4x1x64x1x64x1x64x64 : S4x64x64x64x64.ShapeCasts S4x1x64x1x64x1x64x64
  reducesTo_S4x1x64x1x64x1x64x64_S4x1x1x1x64_d2_4_6 : S4x1x64x1x64x1x64x64.ReducesTo [2, 4, 6] S4x1x1x1x64
  h_S_ : 0 < S_.numel
  shapeCasts_S4x1x1x1x64_S4x64 : S4x1x1x1x64.ShapeCasts S4x64
  shapeCasts_S4x64x64x64x64_S4x2x32x2x32x2x32x64 : S4x64x64x64x64.ShapeCasts S4x2x32x2x32x2x32x64
  reducesTo_S4x2x32x2x32x2x32x64_S4x2x2x2x64_d2_4_6 : S4x2x32x2x32x2x32x64.ReducesTo [2, 4, 6] S4x2x2x2x64
  shapeCasts_S4x2x2x2x64_S4x512 : S4x2x2x2x64.ShapeCasts S4x512
  shapeCasts_S4x64x64x64x64_S4x4x16x4x16x4x16x64 : S4x64x64x64x64.ShapeCasts S4x4x16x4x16x4x16x64
  reducesTo_S4x4x16x4x16x4x16x64_S4x4x4x4x64_d2_4_6 : S4x4x16x4x16x4x16x64.ReducesTo [2, 4, 6] S4x4x4x4x64
  shapeCasts_S4x4x4x4x64_S4x4096 : S4x4x4x4x64.ShapeCasts S4x4096
  concatenates_S4x64_S4x512_S4x4096_S4x4672_d1 : Shape.Concatenates [S4x64, S4x512, S4x4096] S4x4672 1

variable [Facts₀]

class Facts : Prop extends Facts₀ where

variable [Facts]
-- ==== Proof.KFrameKit.lean ====
/-
  What the kernel's frame is stated over, at any float instance `F`.

  @main is one reshape of the argument (depth and channel fused into one axis of 4096), the pooling region over a
  4 × 4 grid of points (batch, block of sixteen heights), then three reshapes and one concatenation of the region's three
  result arrays. Here: the buffers' contents when the region is entered (`V`: the argument reshaped), @main as "lines, region,
  lines" for the launch theorem, the side conditions of the lines after the region (they touch only unscoped buffers,
  allocate nothing and write none of the region's arrays), a window's block at a point (`iblk`), the six branch
  conditions of the body in closed form over the sixteen points, and the frame claim read off a frame run's post.

  The branch conditions: with the point `t = 4 b + hc`, the coarsest scale's accumulator is reset at `hc = 0` and joined at
  `hc ≠ 0`; the middle scale's is reset at even `hc` and joined at odd `hc`; the finest scale's block is written at every point.
-/
import proofs.«115212_j73418170957951_2_alg».proof.Proof.Gen.Kernel.Launch
import proofs.«115212_j73418170957951_2_alg».proof.Proof.Gen.Kernel.Skeleton
import proofs.«115212_j73418170957951_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch contents after the one line before the region
    (the argument reshaped into the region's input array). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the line before the region, the region, and the four lines after it: it reduces to the region continued
    by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The lines after the region touch the region's arrays and the other unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the region: each writes its own result buffer, which is none of the four. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.reshape_writes, StableHlo.nary_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point (it is fetched at every point), for any
    proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, decided over the sixteen points -/

abbrev cond1 (i : grid0.Coords) : Prop := k0_cond1 i = 1#1
abbrev cond2 (i : grid0.Coords) : Prop := k0_cond2 i = 1#1
abbrev cond3 (i : grid0.Coords) : Prop := k0_cond3 i = 1#1
abbrev cond4 (i : grid0.Coords) : Prop := k0_cond4 i = 1#1
abbrev cond5 (i : grid0.Coords) : Prop := k0_cond5 i = 1#1
abbrev cond6 (i : grid0.Coords) : Prop := k0_cond6 i = 1#1

/-- The coarsest scale's accumulator is reset at the first height block of each batch, -/
theorem hcond1 : ∀ t : Fin cfg0.N, cond1 (grid0.coords t) ↔ t.val % 4 = 0 :=
  (by decide +kernel : ∀ t : Fin grid0.N, cond1 (grid0.coords t) ↔ t.val % 4 = 0)
/-- and joined at the others. -/
theorem hcond2 : ∀ t : Fin cfg0.N, cond2 (grid0.coords t) ↔ ¬t.val % 4 = 0 :=
  (by decide +kernel : ∀ t : Fin grid0.N, cond2 (grid0.coords t) ↔ ¬t.val % 4 = 0)
/-- The middle scale's is reset at the even height blocks, -/
theorem hcond3 : ∀ t : Fin cfg0.N, cond3 (grid0.coords t) ↔ t.val % 2 = 0 :=
  (by decide +kernel : ∀ t : Fin grid0.N, cond3 (grid0.coords t) ↔ t.val % 2 = 0)
/-- and joined at the odd ones. -/
theorem hcond4 : ∀ t : Fin cfg0.N, cond4 (grid0.coords t) ↔ ¬t.val % 2 = 0 :=
  (by decide +kernel : ∀ t : Fin grid0.N, cond4 (grid0.coords t) ↔ ¬t.val % 2 = 0)
/-- The finest scale's block is written at every point, -/
theorem hcond5 : ∀ t : Fin cfg0.N, cond5 (grid0.coords t) :=
  (by decide +kernel : ∀ t : Fin grid0.N, cond5 (grid0.coords t))
/-- and never joined. -/
theorem hcond6 : ∀ t : Fin cfg0.N, ¬cond6 (grid0.coords t) :=
  (by decide +kernel : ∀ t : Fin grid0.N, ¬cond6 (grid0.coords t))

/-- No output window is idle anywhere: at every grid coordinate one of its two stores is taken. -/
theorem live1 : ∀ i : grid0.Coords, cfg0.idle 1 i = false := by decide +kernel
theorem live2 : ∀ i : grid0.Coords, cfg0.idle 2 i = false := by decide +kernel
theorem live3 : ∀ i : grid0.Coords, cfg0.idle 3 i = false := by decide +kernel

/-! ## The staging memrefs at a point -/

abbrev ms0 (t : Fin cfg0.N) : Memref sig .tc .vmem S1x16x64x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1x1x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x2x2x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4x4x64 .f32 := win0_3.stage (cfg0.slots t 3)
abbrev hs3 (t : Fin cfg0.N) : (ms3 t).IsWhole := hstage0_3 ((cfg0.slots t 3).cast nbuf0_3)

end Cert.Kernel.Frame

end
-- ==== Proof.KFrameBody.lean ====
/-
  The kernel body at one grid point, in each of the three ways its branches can go.

  The body loads the point's input block `x0` (sixteen heights × 64 widths × 4096 fused depth-channel lanes), reduces it to
  the block's maxima at the finest scale and pools those 2 × 2 twice for the two coarser scales; then per scale it either
  resets the scale's accumulator block to the new maxima or joins them into it by `max`. Which it does depends on the
  height block `hc` alone: all three reset (`hc = 0`); the coarsest and the middle joined (`hc` odd); the coarsest joined and
  the middle reset (`hc = 2`); the finest is written afresh at every point. In each case: from the input block in its
  staging buffer, the joined accumulators at their previous contents and anything in the others, the body runs to the end
  with the input block untouched and each output buffer holding the stated value — the stored value read back whole,
  since each store covers its buffer.
-/
import proofs.«115212_j73418170957951_2_alg».proof.Proof.KFrameKit
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a whole-buffer rectangle is zero on every axis. -/
theorem hz4 : (![0, 0, 0, 0] : Fin 4 → Nat) = fun _ => 0 := by funext a; fin_cases a <;> rfl
theorem hz5 : (![0, 0, 0, 0, 0] : Fin 5 → Nat) = fun _ => 0 := by funext a; fin_cases a <;> rfl

set_option maxHeartbeats 1000000 in
/-- All three accumulators reset. -/
theorem runA (c : Dev nD) (i : grid0.Coords)
    (a2 : Memref sig .tc .vmem S1x16x64x4096 .f32) (h2 : a2.IsWhole) (a3 : Memref sig .tc .vmem S1x1x1x1x64 .f32) (h3 : a3.IsWhole)
    (a4 : Memref sig .tc .vmem S1x1x2x2x64 .f32) (h4 : a4.IsWhole) (a5 : Memref sig .tc .vmem S1x1x4x4x64 .f32) (h5 : a5.IsWhole)
    (hc1 : cond1 i) (hc2 : ¬cond2 i) (hc3 : cond3 i) (hc4 : ¬cond4 i) (hc5 : cond5 i) (hc6 : ¬cond6 i)
    (x0 : Vec F S1x16x64x4096 .f32) (E : Set ℕ) (K : PUnit → sProp 𝕄) :
    iprop(owns (c : Thread nD τ) a2 fullShare x0 ∗ (∃ d, owns (c : Thread nD τ) a3 fullShare d)
        ∗ (∃ d, owns (c : Thread nD τ) a4 fullShare d) ∗ (∃ d, owns (c : Thread nD τ) a5 fullShare d)
        ∗ (iprop(owns (c : Thread nD τ) a2 fullShare x0 ∗ owns (c : Thread nD τ) a3 fullShare (k0_pay8 x0)
            ∗ owns (c : Thread nD τ) a4 fullShare (k0_pay1 (k0_pay6 x0)) ∗ owns (c : Thread nD τ) a5 fullShare (k0_pay3 (k0_pay5 x0))) -∗ K ⟨⟩))
      ⊢ wp frame (wpE (defs₀ (F := F)) Variants.none c none) E (cc0__spp_kernel i a2 h2 a3 h3 a4 h4 a5 h5) K := by
  simp only [cc0__spp_kernel_eq_skeleton]; unfold cc0__spp_kernel_skel
  simp only [k0_part1_eq_skeleton]
  unfold owns
  iintro ⟨⟨%f0, %hf0, H0⟩, ⟨%d1, %f1, -, H1⟩, ⟨%d2, %f2, -, H2⟩, ⟨%d3, %f3, -, H3⟩, Hk⟩
  obtain rfl := h2.eq_unread hf0
  sl_exec (disch := first | exact hc1 | exact hc2 | exact hc3 | exact hc4 | exact hc5 | exact hc6)
  sl_step
  iapply Hk
  isplitl [H0]
  · iexists _; isplitr; · ipureintro; exact hf0
    iexact H0
  isplitl [H1]
  ·
    iexists _; isplitr; swap; · iexact H1
    ipureintro
    refine (View.read_writes_eq_canon _ _ _ (View.cover_of_tiledL _ S1x1x1x1x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]
  isplitl [H2]
  ·
    iexists _; isplitr; swap; · iexact H2
    ipureintro
    refine (View.read_writes_eq_canon _ _ _ (View.cover_of_tiledL _ S1x1x2x2x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]
  ·
    iexists _; isplitr; swap; · iexact H3
    ipureintro
    refine (View.read_writes_eq_canon _ _ _ (View.cover_of_tiledL _ S1x1x4x4x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]

set_option maxHeartbeats 1000000 in
/-- The coarsest and the middle accumulators joined (at their previous contents `p1`, `p2`), the finest written. -/
theorem runB (c : Dev nD) (i : grid0.Coords)
    (a2 : Memref sig .tc .vmem S1x16x64x4096 .f32) (h2 : a2.IsWhole) (a3 : Memref sig .tc .vmem S1x1x1x1x64 .f32) (h3 : a3.IsWhole)
    (a4 : Memref sig .tc .vmem S1x1x2x2x64 .f32) (h4 : a4.IsWhole) (a5 : Memref sig .tc .vmem S1x1x4x4x64 .f32) (h5 : a5.IsWhole)
    (hc1 : ¬cond1 i) (hc2 : cond2 i) (hc3 : ¬cond3 i) (hc4 : cond4 i) (hc5 : cond5 i) (hc6 : ¬cond6 i)
    (x0 : Vec F S1x16x64x4096 .f32) (p1 : Vec F S1x1x1x1x64 .f32) (p2 : Vec F S1x1x2x2x64 .f32) (E : Set ℕ) (K : PUnit → sProp 𝕄) :
    iprop(owns (c : Thread nD τ) a2 fullShare x0 ∗ owns (c : Thread nD τ) a3 fullShare p1
        ∗ owns (c : Thread nD τ) a4 fullShare p2 ∗ (∃ d, owns (c : Thread nD τ) a5 fullShare d)
        ∗ (iprop(owns (c : Thread nD τ) a2 fullShare x0 ∗ owns (c : Thread nD τ) a3 fullShare (k0_pay9 x0 p1)
            ∗ owns (c : Thread nD τ) a4 fullShare (k0_pay2 (k0_pay6 x0) p2) ∗ owns (c : Thread nD τ) a5 fullShare (k0_pay3 (k0_pay5 x0))) -∗ K ⟨⟩))
      ⊢ wp frame (wpE (defs₀ (F := F)) Variants.none c none) E (cc0__spp_kernel i a2 h2 a3 h3 a4 h4 a5 h5) K := by
  simp only [cc0__spp_kernel_eq_skeleton]; unfold cc0__spp_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  obtain rfl := h2.eq_unread hf0; obtain rfl := h3.eq_unread hf1; obtain rfl := h4.eq_unread hf2
  sl_exec (disch := first | exact hc1 | exact hc2 | exact hc3 | exact hc4 | exact hc5 | exact hc6)
  sl_step
  iapply Hk
  isplitl [H0]
  · iexists _; isplitr; · ipureintro; exact hf0
    iexact H0
  isplitl [H1]
  ·
    iexists _; isplitr; swap; · iexact H1
    ipureintro
    refine (View.read_writes_eq_canon _ _ _ (View.cover_of_tiledL _ S1x1x1x1x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]
  isplitl [H2]
  ·
    iexists _; isplitr; swap; · iexact H2
    ipureintro
    refine (View.read_writes_eq_canon _ _ _ (View.cover_of_tiledL _ S1x1x2x2x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]
  ·
    iexists _; isplitr; swap; · iexact H3
    ipureintro
    refine (View.read_writes_eq_canon _ _ _ (View.cover_of_tiledL _ S1x1x4x4x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]

set_option maxHeartbeats 1000000 in
/-- The coarsest accumulator joined (at its previous contents `p1`), the middle one reset, the finest written. -/
theorem runC (c : Dev nD) (i : grid0.Coords)
    (a2 : Memref sig .tc .vmem S1x16x64x4096 .f32) (h2 : a2.IsWhole) (a3 : Memref sig .tc .vmem S1x1x1x1x64 .f32) (h3 : a3.IsWhole)
    (a4 : Memref sig .tc .vmem S1x1x2x2x64 .f32) (h4 : a4.IsWhole) (a5 : Memref sig .tc .vmem S1x1x4x4x64 .f32) (h5 : a5.IsWhole)
    (hc1 : ¬cond1 i) (hc2 : cond2 i) (hc3 : cond3 i) (hc4 : ¬cond4 i) (hc5 : cond5 i) (hc6 : ¬cond6 i)
    (x0 : Vec F S1x16x64x4096 .f32) (p1 : Vec F S1x1x1x1x64 .f32) (E : Set ℕ) (K : PUnit → sProp 𝕄) :
    iprop(owns (c : Thread nD τ) a2 fullShare x0 ∗ owns (c : Thread nD τ) a3 fullShare p1
        ∗ (∃ d, owns (c : Thread nD τ) a4 fullShare d) ∗ (∃ d, owns (c : Thread nD τ) a5 fullShare d)
        ∗ (iprop(owns (c : Thread nD τ) a2 fullShare x0 ∗ owns (c : Thread nD τ) a3 fullShare (k0_pay9 x0 p1)
            ∗ owns (c : Thread nD τ) a4 fullShare (k0_pay1 (k0_pay6 x0)) ∗ owns (c : Thread nD τ) a5 fullShare (k0_pay3 (k0_pay5 x0))) -∗ K ⟨⟩))
      ⊢ wp frame (wpE (defs₀ (F := F)) Variants.none c none) E (cc0__spp_kernel i a2 h2 a3 h3 a4 h4 a5 h5) K := by
  simp only [cc0__spp_kernel_eq_skeleton]; unfold cc0__spp_kernel_skel
  simp only [k0_part1_eq_skeleton]
  unfold owns
  iintro ⟨⟨%f0, %hf0, H0⟩, ⟨%f1, %hf1, H1⟩, ⟨%d2, %f2, -, H2⟩, ⟨%d3, %f3, -, H3⟩, Hk⟩
  obtain rfl := h2.eq_unread hf0; obtain rfl := h3.eq_unread hf1
  sl_exec (disch := first | exact hc1 | exact hc2 | exact hc3 | exact hc4 | exact hc5 | exact hc6)
  sl_step
  iapply Hk
  isplitl [H0]
  · iexists _; isplitr; · ipureintro; exact hf0
    iexact H0
  isplitl [H1]
  ·
    iexists _; isplitr; swap; · iexact H1
    ipureintro
    refine (View.read_writes_eq_canon _ _ _ (View.cover_of_tiledL _ S1x1x1x1x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]
  isplitl [H2]
  ·
    iexists _; isplitr; swap; · iexact H2
    ipureintro
    refine (View.read_writes_eq_canon _ _ _ (View.cover_of_tiledL _ S1x1x2x2x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]
  ·
    iexists _; isplitr; swap; · iexact H3
    ipureintro
    refine (View.read_writes_eq_canon _ _ _ (View.cover_of_tiledL _ S1x1x4x4x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]

end Cert.Kernel.Frame

end
-- ==== Proof.KFrameRun.lean ====
/-
  The kernel's frame run, at any float instance `F`: what each output's staging buffer holds after the body at each grid
  point, and the body's run at every point from what the launch hands it.

  The points run batch by batch, four height blocks each: `t = 4 b + hc`. After the body at point `t` the finest scale's buffer
  holds the point's own pooled block; the middle scale's holds the pooled block of an even `hc`, and at an odd `hc` its `max`
  with what the point before left (the buffer is written back only after odd points, so it is carried from the even point
  to the odd one); the coarsest scale's is reset at `hc = 0` and joined at `hc = 1, 2, 3` (written back only after `hc = 3`).
  Each is a recursion on the point (`o1At`, `o2At`), and the body's three cases (FrameBody) establish it point by point.
-/
import proofs.«115212_j73418170957951_2_alg».proof.Proof.KFrameBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- The coarsest scale's staging buffer after the body at position `n`: reset at the first height block of a batch, joined
    with what the point before left at the others. -/
def o1At (c : Dev nD) : (n : ℕ) → n < cfg0.N → Vec F S1x1x1x1x64 .f32
  | 0, hn => k0_pay8 (iblk m c 0 ⟨0, hn⟩)
  | n + 1, hn =>
    if (n + 1) % 4 = 0 then k0_pay8 (iblk m c 0 ⟨n + 1, hn⟩)
    else k0_pay9 (iblk m c 0 ⟨n + 1, hn⟩) (o1At c n (Nat.lt_of_succ_lt hn))

theorem o1At_reset (c : Dev nD) (t : Fin cfg0.N) (h : t.val % 4 = 0) :
    o1At m c t.val t.isLt = k0_pay8 (iblk m c 0 t) := by
  obtain ⟨n, hn⟩ := t
  cases n with
  | zero => rfl
  | succ n => exact (if_pos h).trans rfl

theorem o1At_join (c : Dev nD) (t : Fin cfg0.N) (h : ¬t.val % 4 = 0) :
    o1At m c t.val t.isLt = k0_pay9 (iblk m c 0 t) (o1At m c (t.val - 1) (Nat.lt_of_le_of_lt (Nat.sub_le _ _) t.isLt)) := by
  obtain ⟨n, hn⟩ := t
  cases n with
  | zero => exact absurd (Nat.zero_mod _) h
  | succ n => exact (if_neg h).trans rfl

/-- The middle scale's staging buffer after the body at position `n`: reset at the even height blocks, joined at the odd. -/
def o2At (c : Dev nD) : (n : ℕ) → n < cfg0.N → Vec F S1x1x2x2x64 .f32
  | 0, hn => k0_pay1 (k0_pay6 (iblk m c 0 ⟨0, hn⟩))
  | n + 1, hn =>
    if (n + 1) % 2 = 0 then k0_pay1 (k0_pay6 (iblk m c 0 ⟨n + 1, hn⟩))
    else k0_pay2 (k0_pay6 (iblk m c 0 ⟨n + 1, hn⟩)) (o2At c n (Nat.lt_of_succ_lt hn))

theorem o2At_reset (c : Dev nD) (t : Fin cfg0.N) (h : t.val % 2 = 0) :
    o2At m c t.val t.isLt = k0_pay1 (k0_pay6 (iblk m c 0 t)) := by
  obtain ⟨n, hn⟩ := t
  cases n with
  | zero => rfl
  | succ n => exact (if_pos h).trans rfl

theorem o2At_join (c : Dev nD) (t : Fin cfg0.N) (h : ¬t.val % 2 = 0) :
    o2At m c t.val t.isLt = k0_pay2 (k0_pay6 (iblk m c 0 t)) (o2At m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The proof data -/

/-- The proof data of the pipeline on core `c`: the arrays as the region finds them; after the body at point `t` the input's
    buffer at its block, the outputs' at the recursions above; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => o1At m c t.val t.isLt
    | ⟨2, _⟩ => o2At m c t.val t.isLt
    | ⟨3, _⟩ => k0_pay3 (k0_pay5 (iblk m c 0 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = o1At m c t.val t.isLt := by dsimp only [dats]
theorem after2 (c : Dev nD) (t : Fin cfg0.N) : (dats m 0 c).after 2 t = o2At m c t.val t.isLt := by dsimp only [dats]
theorem after3 (c : Dev nD) (t : Fin cfg0.N) : (dats m 0 c).after 3 t = k0_pay3 (k0_pay5 (iblk m c 0 t)) := by dsimp only [dats]

/-- The input's staging buffer holds its block at every point. -/
theorem before0 (c : Dev nD) (t : Fin cfg0.N) (d) : (dats m 0 c).before 0 t d = iblk m c 0 t :=
  before0_0_of m (dats m 0 c) (A_eq m c 0) (after0 m c) t d

/-- At a point that joins the coarsest accumulator its buffer holds what the body left at the point before: the point is
    not the first, and the buffer is written back only after the last height block of a batch. -/
theorem before1_join (c : Dev nD) (t : Fin cfg0.N) (h : ¬t.val % 4 = 0) (d) :
    (dats m 0 c).before 1 t d = o1At m c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun hh => by have := (flush0_1 _).mp hh; dsimp only at this; omega)
    live1 (fun _ _ => rfl)]
  dsimp only [dats]

/-- The same for the middle accumulator at an odd height block: its buffer is written back only after odd ones. -/
theorem before2_join (c : Dev nD) (t : Fin cfg0.N) (h : ¬t.val % 2 = 0) (d) :
    (dats m 0 c).before 2 t d = o2At m c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun hh => by have := (flush0_2 _).mp hh; dsimp only at this; omega)
    live2 (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the input's buffer holds its block; the point's height block says which accumulators are joined,
    and a joined one holds what the point before left; so that case's run applies. The invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = (dats m 0 c).Φ t.castSucc from rfl,
    show (dats m 0 c).owesAt () t.succ = (dats m 0 c).owesAt () t.castSucc from rfl,
    after0, after1, after2, after3]
  have hN : t.val < 16 := lt_of_lt_of_eq t.isLt (show cfg0.N = 16 from N_0)
  by_cases h4 : t.val % 4 = 0
  · have h2 : t.val % 2 = 0 := by omega
    rw [o1At_reset m c t h4, o2At_reset m c t h2]
    iintro ⟨HΦ, Ho, ⟨%d0, H0⟩, ⟨%d1, H1⟩, ⟨%d2, H2⟩, ⟨%d3, H3⟩⟩
    iapply (runA c (grid0.coords t) _ _ _ _ _ _ _ _ ((hcond1 t).mpr h4) (fun h => (hcond2 t).mp h h4) ((hcond3 t).mpr h2)
      (fun h => (hcond4 t).mp h h2) (hcond5 t) (hcond6 t) (iblk m c 0 t) Set.univ _)
    isplitl [H0]; · iexact H0
    isplitl [H1]; · iexists _; iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · by_cases h2 : t.val % 2 = 0
    · rw [o1At_join m c t h4, o2At_reset m c t h2]
      simp only [before1_join m c t h4]
      iintro ⟨HΦ, Ho, ⟨%d0, H0⟩, ⟨%d1, H1⟩, ⟨%d2, H2⟩, ⟨%d3, H3⟩⟩
      iapply (runC c (grid0.coords t) _ _ _ _ _ _ _ _ (fun h => h4 ((hcond1 t).mp h)) ((hcond2 t).mpr h4) ((hcond3 t).mpr h2)
        (fun h => (hcond4 t).mp h h2) (hcond5 t) (hcond6 t) (iblk m c 0 t) _ Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [o1At_join m c t h4, o2At_join m c t h2]
      simp only [before1_join m c t h4, before2_join m c t h2]
      iintro ⟨HΦ, Ho, ⟨%d0, H0⟩, ⟨%d1, H1⟩, ⟨%d2, H2⟩, ⟨%d3, H3⟩⟩
      iapply (runB c (grid0.coords t) _ _ _ _ _ _ _ _ (fun h => h4 ((hcond1 t).mp h)) ((hcond2 t).mpr h4) (fun h => h2 ((hcond3 t).mp h))
        ((hcond4 t).mpr h2) (hcond5 t) (hcond6 t) (iblk m c 0 t) _ _ Set.univ _)
      isplitl [H0]; · iexact H0
      isplitl [H1]; · iexact H1
      isplitl [H2]; · iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

end Cert.Kernel.Frame

end
-- ==== Proof.KFrameMain.lean ====
/-
  The kernel's frame, at any float instance `F`: the library's body obligation from the body's run at every point (no output
  window is idle anywhere, so each buffer is handed back at what the body left), the run of @main — the line before the
  region, the region, the four lines after it — and the frame claim: the argument array is no array of the region and no
  line writes it, so it ends at its launch contents.
-/
import proofs.«115212_j73418170957951_2_alg».proof.Proof.KFrameRun

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The library's body obligation, at every point. -/
theorem body_obligation (c : Dev nD) : BodyObligation (dats (F := F) m 0 c) (defs₀ (F := F)) Variants.none () Set.univ := fun t => by
  rw [bigSep_W0, bigSep_W0]
  have l1 : ∀ i : grid0.Coords, idle0 1 i = false := live1
  have l2 : ∀ i : grid0.Coords, idle0 2 i = false := live2
  have l3 : ∀ i : grid0.Coords, idle0 3 i = false := live3
  simp only [l1, l2, l3]
  exact sound_body m c t

/-! ## The run and the frame -/

set_option backward.isDefEq.respectTransparency.types false in
/-- Every weakly fair execution of @main terminates, and every final state has every array of the region at what the library
    computes from the proof data and every other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument array is no array of the region and no line writes it: after the lines that follow the region it holds
    its launch contents. -/
theorem tail_arg0 (c : Dev nD) :
    Pipeline.afterTail₀ cfgs (dats m) 0 (V0 m) [hostOps1] c main_arg0 = m ((c.tc : Thread nD τ).loc main_arg0) := by
  unfold Pipeline.afterTail₀
  show StableHlo.after hostOps1 _ (Proc.devRef .tc main_arg0) = _
  after_results
  rw [Pipeline.withArrays_of_ne _ _ _ _ main_arg0 (by decide)]
  show StableHlo.after hostOps0 _ (Proc.devRef .tc main_arg0) = _
  after_results

/-- THE FRAME: @main runs to the end, nothing faults, and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (by decide)).trans (tail_arg0 m c)) (run_main m ρ)

end Cert.Kernel.Frame

end
-- ==== Proof.FrameKit.lean ====
/-
  What the kernel's frame is stated over, at any float instance `F`.

  @main is one reshape of the argument (depth and channel fused into one axis of 4096), the pooling region over a
  4 × 4 grid of points (batch, block of sixteen heights), then three reshapes and one concatenation of the region's three
  result arrays. Here: the buffers' contents when the region is entered (`V`: the argument reshaped), @main as "lines, region,
  lines" for the launch theorem, the side conditions of the lines after the region (they touch only unscoped buffers,
  allocate nothing and write none of the region's arrays), a window's block at a point (`iblk`), the six branch
  conditions of the body in closed form over the sixteen points, and the frame claim read off a frame run's post.

  The branch conditions: with the point `t = 4 b + hc`, the coarsest scale's accumulator is reset at `hc = 0` and joined at
  `hc ≠ 0`; the middle scale's is reset at even `hc` and joined at odd `hc`; the finest scale's block is written at every point.
-/
import proofs.«115212_j73418170957951_2_alg».proof.Proof.Gen.KernelIdeal.Launch
import proofs.«115212_j73418170957951_2_alg».proof.Proof.Gen.KernelIdeal.Skeleton
import proofs.«115212_j73418170957951_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch contents after the one line before the region
    (the argument reshaped into the region's input array). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the line before the region, the region, and the four lines after it: it reduces to the region continued
    by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The lines after the region touch the region's arrays and the other unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the region: each writes its own result buffer, which is none of the four. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.reshape_writes, StableHlo.nary_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point (it is fetched at every point), for any
    proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, decided over the sixteen points -/

abbrev cond1 (i : grid0.Coords) : Prop := k0_cond1 i = 1#1
abbrev cond2 (i : grid0.Coords) : Prop := k0_cond2 i = 1#1
abbrev cond3 (i : grid0.Coords) : Prop := k0_cond3 i = 1#1
abbrev cond4 (i : grid0.Coords) : Prop := k0_cond4 i = 1#1
abbrev cond5 (i : grid0.Coords) : Prop := k0_cond5 i = 1#1
abbrev cond6 (i : grid0.Coords) : Prop := k0_cond6 i = 1#1

/-- The coarsest scale's accumulator is reset at the first height block of each batch, -/
theorem hcond1 : ∀ t : Fin cfg0.N, cond1 (grid0.coords t) ↔ t.val % 4 = 0 :=
  (by decide +kernel : ∀ t : Fin grid0.N, cond1 (grid0.coords t) ↔ t.val % 4 = 0)
/-- and joined at the others. -/
theorem hcond2 : ∀ t : Fin cfg0.N, cond2 (grid0.coords t) ↔ ¬t.val % 4 = 0 :=
  (by decide +kernel : ∀ t : Fin grid0.N, cond2 (grid0.coords t) ↔ ¬t.val % 4 = 0)
/-- The middle scale's is reset at the even height blocks, -/
theorem hcond3 : ∀ t : Fin cfg0.N, cond3 (grid0.coords t) ↔ t.val % 2 = 0 :=
  (by decide +kernel : ∀ t : Fin grid0.N, cond3 (grid0.coords t) ↔ t.val % 2 = 0)
/-- and joined at the odd ones. -/
theorem hcond4 : ∀ t : Fin cfg0.N, cond4 (grid0.coords t) ↔ ¬t.val % 2 = 0 :=
  (by decide +kernel : ∀ t : Fin grid0.N, cond4 (grid0.coords t) ↔ ¬t.val % 2 = 0)
/-- The finest scale's block is written at every point, -/
theorem hcond5 : ∀ t : Fin cfg0.N, cond5 (grid0.coords t) :=
  (by decide +kernel : ∀ t : Fin grid0.N, cond5 (grid0.coords t))
/-- and never joined. -/
theorem hcond6 : ∀ t : Fin cfg0.N, ¬cond6 (grid0.coords t) :=
  (by decide +kernel : ∀ t : Fin grid0.N, ¬cond6 (grid0.coords t))

/-- No output window is idle anywhere: at every grid coordinate one of its two stores is taken. -/
theorem live1 : ∀ i : grid0.Coords, cfg0.idle 1 i = false := by decide +kernel
theorem live2 : ∀ i : grid0.Coords, cfg0.idle 2 i = false := by decide +kernel
theorem live3 : ∀ i : grid0.Coords, cfg0.idle 3 i = false := by decide +kernel

/-! ## The staging memrefs at a point -/

abbrev ms0 (t : Fin cfg0.N) : Memref sig .tc .vmem S1x16x64x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1x1x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x2x2x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4x4x64 .f32 := win0_3.stage (cfg0.slots t 3)
abbrev hs3 (t : Fin cfg0.N) : (ms3 t).IsWhole := hstage0_3 ((cfg0.slots t 3).cast nbuf0_3)

end Cert.KernelIdeal.Frame

end
-- ==== Proof.FrameBody.lean ====
/-
  The kernel body at one grid point, in each of the three ways its branches can go.

  The body loads the point's input block `x0` (sixteen heights × 64 widths × 4096 fused depth-channel lanes), reduces it to
  the block's maxima at the finest scale and pools those 2 × 2 twice for the two coarser scales; then per scale it either
  resets the scale's accumulator block to the new maxima or joins them into it by `max`. Which it does depends on the
  height block `hc` alone: all three reset (`hc = 0`); the coarsest and the middle joined (`hc` odd); the coarsest joined and
  the middle reset (`hc = 2`); the finest is written afresh at every point. In each case: from the input block in its
  staging buffer, the joined accumulators at their previous contents and anything in the others, the body runs to the end
  with the input block untouched and each output buffer holding the stated value — the stored value read back whole,
  since each store covers its buffer.
-/
import proofs.«115212_j73418170957951_2_alg».proof.Proof.FrameKit
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a whole-buffer rectangle is zero on every axis. -/
theorem hz4 : (![0, 0, 0, 0] : Fin 4 → Nat) = fun _ => 0 := by funext a; fin_cases a <;> rfl
theorem hz5 : (![0, 0, 0, 0, 0] : Fin 5 → Nat) = fun _ => 0 := by funext a; fin_cases a <;> rfl

set_option maxHeartbeats 1000000 in
/-- All three accumulators reset. -/
theorem runA (c : Dev nD) (i : grid0.Coords)
    (a2 : Memref sig .tc .vmem S1x16x64x4096 .f32) (h2 : a2.IsWhole) (a3 : Memref sig .tc .vmem S1x1x1x1x64 .f32) (h3 : a3.IsWhole)
    (a4 : Memref sig .tc .vmem S1x1x2x2x64 .f32) (h4 : a4.IsWhole) (a5 : Memref sig .tc .vmem S1x1x4x4x64 .f32) (h5 : a5.IsWhole)
    (hc1 : cond1 i) (hc2 : ¬cond2 i) (hc3 : cond3 i) (hc4 : ¬cond4 i) (hc5 : cond5 i) (hc6 : ¬cond6 i)
    (x0 : Vec F S1x16x64x4096 .f32) (E : Set ℕ) (K : PUnit → sProp 𝕄) :
    iprop(owns (c : Thread nD τ) a2 fullShare x0 ∗ (∃ d, owns (c : Thread nD τ) a3 fullShare d)
        ∗ (∃ d, owns (c : Thread nD τ) a4 fullShare d) ∗ (∃ d, owns (c : Thread nD τ) a5 fullShare d)
        ∗ (iprop(owns (c : Thread nD τ) a2 fullShare x0 ∗ owns (c : Thread nD τ) a3 fullShare (k0_pay8 x0)
            ∗ owns (c : Thread nD τ) a4 fullShare (k0_pay1 (k0_pay6 x0)) ∗ owns (c : Thread nD τ) a5 fullShare (k0_pay3 (k0_pay5 x0))) -∗ K ⟨⟩))
      ⊢ wp frame (wpE (defs₀ (F := F)) Variants.none c none) E (cc0__spp_kernel i a2 h2 a3 h3 a4 h4 a5 h5) K := by
  simp only [cc0__spp_kernel_eq_skeleton]; unfold cc0__spp_kernel_skel
  simp only [k0_part1_eq_skeleton]
  unfold owns
  iintro ⟨⟨%f0, %hf0, H0⟩, ⟨%d1, %f1, -, H1⟩, ⟨%d2, %f2, -, H2⟩, ⟨%d3, %f3, -, H3⟩, Hk⟩
  obtain rfl := h2.eq_unread hf0
  sl_exec (disch := first | exact hc1 | exact hc2 | exact hc3 | exact hc4 | exact hc5 | exact hc6)
  sl_step
  iapply Hk
  isplitl [H0]
  · iexists _; isplitr; · ipureintro; exact hf0
    iexact H0
  isplitl [H1]
  ·
    iexists _; isplitr; swap; · iexact H1
    ipureintro
    refine (View.read_writes_eq_canon _ _ _ (View.cover_of_tiledL _ S1x1x1x1x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]
  isplitl [H2]
  ·
    iexists _; isplitr; swap; · iexact H2
    ipureintro
    refine (View.read_writes_eq_canon _ _ _ (View.cover_of_tiledL _ S1x1x2x2x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]
  ·
    iexists _; isplitr; swap; · iexact H3
    ipureintro
    refine (View.read_writes_eq_canon _ _ _ (View.cover_of_tiledL _ S1x1x4x4x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]

set_option maxHeartbeats 1000000 in
/-- The coarsest and the middle accumulators joined (at their previous contents `p1`, `p2`), the finest written. -/
theorem runB (c : Dev nD) (i : grid0.Coords)
    (a2 : Memref sig .tc .vmem S1x16x64x4096 .f32) (h2 : a2.IsWhole) (a3 : Memref sig .tc .vmem S1x1x1x1x64 .f32) (h3 : a3.IsWhole)
    (a4 : Memref sig .tc .vmem S1x1x2x2x64 .f32) (h4 : a4.IsWhole) (a5 : Memref sig .tc .vmem S1x1x4x4x64 .f32) (h5 : a5.IsWhole)
    (hc1 : ¬cond1 i) (hc2 : cond2 i) (hc3 : ¬cond3 i) (hc4 : cond4 i) (hc5 : cond5 i) (hc6 : ¬cond6 i)
    (x0 : Vec F S1x16x64x4096 .f32) (p1 : Vec F S1x1x1x1x64 .f32) (p2 : Vec F S1x1x2x2x64 .f32) (E : Set ℕ) (K : PUnit → sProp 𝕄) :
    iprop(owns (c : Thread nD τ) a2 fullShare x0 ∗ owns (c : Thread nD τ) a3 fullShare p1
        ∗ owns (c : Thread nD τ) a4 fullShare p2 ∗ (∃ d, owns (c : Thread nD τ) a5 fullShare d)
        ∗ (iprop(owns (c : Thread nD τ) a2 fullShare x0 ∗ owns (c : Thread nD τ) a3 fullShare (k0_pay9 x0 p1)
            ∗ owns (c : Thread nD τ) a4 fullShare (k0_pay2 (k0_pay6 x0) p2) ∗ owns (c : Thread nD τ) a5 fullShare (k0_pay3 (k0_pay5 x0))) -∗ K ⟨⟩))
      ⊢ wp frame (wpE (defs₀ (F := F)) Variants.none c none) E (cc0__spp_kernel i a2 h2 a3 h3 a4 h4 a5 h5) K := by
  simp only [cc0__spp_kernel_eq_skeleton]; unfold cc0__spp_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  obtain rfl := h2.eq_unread hf0; obtain rfl := h3.eq_unread hf1; obtain rfl := h4.eq_unread hf2
  sl_exec (disch := first | exact hc1 | exact hc2 | exact hc3 | exact hc4 | exact hc5 | exact hc6)
  sl_step
  iapply Hk
  isplitl [H0]
  · iexists _; isplitr; · ipureintro; exact hf0
    iexact H0
  isplitl [H1]
  ·
    iexists _; isplitr; swap; · iexact H1
    ipureintro
    refine (View.read_writes_eq_canon _ _ _ (View.cover_of_tiledL _ S1x1x1x1x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]
  isplitl [H2]
  ·
    iexists _; isplitr; swap; · iexact H2
    ipureintro
    refine (View.read_writes_eq_canon _ _ _ (View.cover_of_tiledL _ S1x1x2x2x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]
  ·
    iexists _; isplitr; swap; · iexact H3
    ipureintro
    refine (View.read_writes_eq_canon _ _ _ (View.cover_of_tiledL _ S1x1x4x4x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]

set_option maxHeartbeats 1000000 in
/-- The coarsest accumulator joined (at its previous contents `p1`), the middle one reset, the finest written. -/
theorem runC (c : Dev nD) (i : grid0.Coords)
    (a2 : Memref sig .tc .vmem S1x16x64x4096 .f32) (h2 : a2.IsWhole) (a3 : Memref sig .tc .vmem S1x1x1x1x64 .f32) (h3 : a3.IsWhole)
    (a4 : Memref sig .tc .vmem S1x1x2x2x64 .f32) (h4 : a4.IsWhole) (a5 : Memref sig .tc .vmem S1x1x4x4x64 .f32) (h5 : a5.IsWhole)
    (hc1 : ¬cond1 i) (hc2 : cond2 i) (hc3 : cond3 i) (hc4 : ¬cond4 i) (hc5 : cond5 i) (hc6 : ¬cond6 i)
    (x0 : Vec F S1x16x64x4096 .f32) (p1 : Vec F S1x1x1x1x64 .f32) (E : Set ℕ) (K : PUnit → sProp 𝕄) :
    iprop(owns (c : Thread nD τ) a2 fullShare x0 ∗ owns (c : Thread nD τ) a3 fullShare p1
        ∗ (∃ d, owns (c : Thread nD τ) a4 fullShare d) ∗ (∃ d, owns (c : Thread nD τ) a5 fullShare d)
        ∗ (iprop(owns (c : Thread nD τ) a2 fullShare x0 ∗ owns (c : Thread nD τ) a3 fullShare (k0_pay9 x0 p1)
            ∗ owns (c : Thread nD τ) a4 fullShare (k0_pay1 (k0_pay6 x0)) ∗ owns (c : Thread nD τ) a5 fullShare (k0_pay3 (k0_pay5 x0))) -∗ K ⟨⟩))
      ⊢ wp frame (wpE (defs₀ (F := F)) Variants.none c none) E (cc0__spp_kernel i a2 h2 a3 h3 a4 h4 a5 h5) K := by
  simp only [cc0__spp_kernel_eq_skeleton]; unfold cc0__spp_kernel_skel
  simp only [k0_part1_eq_skeleton]
  unfold owns
  iintro ⟨⟨%f0, %hf0, H0⟩, ⟨%f1, %hf1, H1⟩, ⟨%d2, %f2, -, H2⟩, ⟨%d3, %f3, -, H3⟩, Hk⟩
  obtain rfl := h2.eq_unread hf0; obtain rfl := h3.eq_unread hf1
  sl_exec (disch := first | exact hc1 | exact hc2 | exact hc3 | exact hc4 | exact hc5 | exact hc6)
  sl_step
  iapply Hk
  isplitl [H0]
  · iexists _; isplitr; · ipureintro; exact hf0
    iexact H0
  isplitl [H1]
  ·
    iexists _; isplitr; swap; · iexact H1
    ipureintro
    refine (View.read_writes_eq_canon _ _ _ (View.cover_of_tiledL _ S1x1x1x1x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]
  isplitl [H2]
  ·
    iexists _; isplitr; swap; · iexact H2
    ipureintro
    refine (View.read_writes_eq_canon _ _ _ (View.cover_of_tiledL _ S1x1x2x2x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]
  ·
    iexists _; isplitr; swap; · iexact H3
    ipureintro
    refine (View.read_writes_eq_canon _ _ _ (View.cover_of_tiledL _ S1x1x4x4x64.size (by sl_kernel_rfl))).trans ?_
    refine (View.canon_unit_zero hz5 _ _).trans ?_
    sl_unfold_run_names
    simp only [View.readAt_eq_ld, h2.read_unread, h3.read_unread, h4.read_unread, View.ld_unit_zero (S := S1x16x64x4096) hz4,
      View.ld_unit_zero (S := S1x1x1x1x64) hz5, View.ld_unit_zero (S := S1x1x2x2x64) hz5]

end Cert.KernelIdeal.Frame

end
-- ==== Proof.FrameRun.lean ====
/-
  The kernel's frame run, at any float instance `F`: what each output's staging buffer holds after the body at each grid
  point, and the body's run at every point from what the launch hands it.

  The points run batch by batch, four height blocks each: `t = 4 b + hc`. After the body at point `t` the finest scale's buffer
  holds the point's own pooled block; the middle scale's holds the pooled block of an even `hc`, and at an odd `hc` its `max`
  with what the point before left (the buffer is written back only after odd points, so it is carried from the even point
  to the odd one); the coarsest scale's is reset at `hc = 0` and joined at `hc = 1, 2, 3` (written back only after `hc = 3`).
  Each is a recursion on the point (`o1At`, `o2At`), and the body's three cases (FrameBody) establish it point by point.
-/
import proofs.«115212_j73418170957951_2_alg».proof.Proof.FrameBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- The coarsest scale's staging buffer after the body at position `n`: reset at the first height block of a batch, joined
    with what the point before left at the others. -/
def o1At (c : Dev nD) : (n : ℕ) → n < cfg0.N → Vec F S1x1x1x1x64 .f32
  | 0, hn => k0_pay8 (iblk m c 0 ⟨0, hn⟩)
  | n + 1, hn =>
    if (n + 1) % 4 = 0 then k0_pay8 (iblk m c 0 ⟨n + 1, hn⟩)
    else k0_pay9 (iblk m c 0 ⟨n + 1, hn⟩) (o1At c n (Nat.lt_of_succ_lt hn))

theorem o1At_reset (c : Dev nD) (t : Fin cfg0.N) (h : t.val % 4 = 0) :
    o1At m c t.val t.isLt = k0_pay8 (iblk m c 0 t) := by
  obtain ⟨n, hn⟩ := t
  cases n with
  | zero => rfl
  | succ n => exact (if_pos h).trans rfl

theorem o1At_join (c : Dev nD) (t : Fin cfg0.N) (h : ¬t.val % 4 = 0) :
    o1At m c t.val t.isLt = k0_pay9 (iblk m c 0 t) (o1At m c (t.val - 1) (Nat.lt_of_le_of_lt (Nat.sub_le _ _) t.isLt)) := by
  obtain ⟨n, hn⟩ := t
  cases n with
  | zero => exact absurd (Nat.zero_mod _) h
  | succ n => exact (if_neg h).trans rfl

/-- The middle scale's staging buffer after the body at position `n`: reset at the even height blocks, joined at the odd. -/
def o2At (c : Dev nD) : (n : ℕ) → n < cfg0.N → Vec F S1x1x2x2x64 .f32
  | 0, hn => k0_pay1 (k0_pay6 (iblk m c 0 ⟨0, hn⟩))
  | n + 1, hn =>
    if (n + 1) % 2 = 0 then k0_pay1 (k0_pay6 (iblk m c 0 ⟨n + 1, hn⟩))
    else k0_pay2 (k0_pay6 (iblk m c 0 ⟨n + 1, hn⟩)) (o2At c n (Nat.lt_of_succ_lt hn))

theorem o2At_reset (c : Dev nD) (t : Fin cfg0.N) (h : t.val % 2 = 0) :
    o2At m c t.val t.isLt = k0_pay1 (k0_pay6 (iblk m c 0 t)) := by
  obtain ⟨n, hn⟩ := t
  cases n with
  | zero => rfl
  | succ n => exact (if_pos h).trans rfl

theorem o2At_join (c : Dev nD) (t : Fin cfg0.N) (h : ¬t.val % 2 = 0) :
    o2At m c t.val t.isLt = k0_pay2 (k0_pay6 (iblk m c 0 t)) (o2At m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The proof data -/

/-- The proof data of the pipeline on core `c`: the arrays as the region finds them; after the body at point `t` the input's
    buffer at its block, the outputs' at the recursions above; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => o1At m c t.val t.isLt
    | ⟨2, _⟩ => o2At m c t.val t.isLt
    | ⟨3, _⟩ => k0_pay3 (k0_pay5 (iblk m c 0 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = o1At m c t.val t.isLt := by dsimp only [dats]
theorem after2 (c : Dev nD) (t : Fin cfg0.N) : (dats m 0 c).after 2 t = o2At m c t.val t.isLt := by dsimp only [dats]
theorem after3 (c : Dev nD) (t : Fin cfg0.N) : (dats m 0 c).after 3 t = k0_pay3 (k0_pay5 (iblk m c 0 t)) := by dsimp only [dats]

/-- The input's staging buffer holds its block at every point. -/
theorem before0 (c : Dev nD) (t : Fin cfg0.N) (d) : (dats m 0 c).before 0 t d = iblk m c 0 t :=
  before0_0_of m (dats m 0 c) (A_eq m c 0) (after0 m c) t d

/-- At a point that joins the coarsest accumulator its buffer holds what the body left at the point before: the point is
    not the first, and the buffer is written back only after the last height block of a batch. -/
theorem before1_join (c : Dev nD) (t : Fin cfg0.N) (h : ¬t.val % 4 = 0) (d) :
    (dats m 0 c).before 1 t d = o1At m c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun hh => by have := (flush0_1 _).mp hh; dsimp only at this; omega)
    live1 (fun _ _ => rfl)]
  dsimp only [dats]

/-- The same for the middle accumulator at an odd height block: its buffer is written back only after odd ones. -/
theorem before2_join (c : Dev nD) (t : Fin cfg0.N) (h : ¬t.val % 2 = 0) (d) :
    (dats m 0 c).before 2 t d = o2At m c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun hh => by have := (flush0_2 _).mp hh; dsimp only at this; omega)
    live2 (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the input's buffer holds its block; the point's height block says which accumulators are joined,
    and a joined one holds what the point before left; so that case's run applies. The invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = (dats m 0 c).Φ t.castSucc from rfl,
    show (dats m 0 c).owesAt () t.succ = (dats m 0 c).owesAt () t.castSucc from rfl,
    after0, after1, after2, after3]
  have hN : t.val < 16 := lt_of_lt_of_eq t.isLt (show cfg0.N = 16 from N_0)
  by_cases h4 : t.val % 4 = 0
  · have h2 : t.val % 2 = 0 := by omega
    rw [o1At_reset m c t h4, o2At_reset m c t h2]
    iintro ⟨HΦ, Ho, ⟨%d0, H0⟩, ⟨%d1, H1⟩, ⟨%d2, H2⟩, ⟨%d3, H3⟩⟩
    iapply (runA c (grid0.coords t) _ _ _ _ _ _ _ _ ((hcond1 t).mpr h4) (fun h => (hcond2 t).mp h h4) ((hcond3 t).mpr h2)
      (fun h => (hcond4 t).mp h h2) (hcond5 t) (hcond6 t) (iblk m c 0 t) Set.univ _)
    isplitl [H0]; · iexact H0
    isplitl [H1]; · iexists _; iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · by_cases h2 : t.val % 2 = 0
    · rw [o1At_join m c t h4, o2At_reset m c t h2]
      simp only [before1_join m c t h4]
      iintro ⟨HΦ, Ho, ⟨%d0, H0⟩, ⟨%d1, H1⟩, ⟨%d2, H2⟩, ⟨%d3, H3⟩⟩
      iapply (runC c (grid0.coords t) _ _ _ _ _ _ _ _ (fun h => h4 ((hcond1 t).mp h)) ((hcond2 t).mpr h4) ((hcond3 t).mpr h2)
        (fun h => (hcond4 t).mp h h2) (hcond5 t) (hcond6 t) (iblk m c 0 t) _ Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [o1At_join m c t h4, o2At_join m c t h2]
      simp only [before1_join m c t h4, before2_join m c t h2]
      iintro ⟨HΦ, Ho, ⟨%d0, H0⟩, ⟨%d1, H1⟩, ⟨%d2, H2⟩, ⟨%d3, H3⟩⟩
      iapply (runB c (grid0.coords t) _ _ _ _ _ _ _ _ (fun h => h4 ((hcond1 t).mp h)) ((hcond2 t).mpr h4) (fun h => h2 ((hcond3 t).mp h))
        ((hcond4 t).mpr h2) (hcond5 t) (hcond6 t) (iblk m c 0 t) _ _ Set.univ _)
      isplitl [H0]; · iexact H0
      isplitl [H1]; · iexact H1
      isplitl [H2]; · iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

end Cert.KernelIdeal.Frame

end
-- ==== Proof.FrameMain.lean ====
/-
  The kernel's frame, at any float instance `F`: the library's body obligation from the body's run at every point (no output
  window is idle anywhere, so each buffer is handed back at what the body left), the run of @main — the line before the
  region, the region, the four lines after it — and the frame claim: the argument array is no array of the region and no
  line writes it, so it ends at its launch contents.
-/
import proofs.«115212_j73418170957951_2_alg».proof.Proof.FrameRun

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The library's body obligation, at every point. -/
theorem body_obligation (c : Dev nD) : BodyObligation (dats (F := F) m 0 c) (defs₀ (F := F)) Variants.none () Set.univ := fun t => by
  rw [bigSep_W0, bigSep_W0]
  have l1 : ∀ i : grid0.Coords, idle0 1 i = false := live1
  have l2 : ∀ i : grid0.Coords, idle0 2 i = false := live2
  have l3 : ∀ i : grid0.Coords, idle0 3 i = false := live3
  simp only [l1, l2, l3]
  exact sound_body m c t

/-! ## The run and the frame -/

set_option backward.isDefEq.respectTransparency.types false in
/-- Every weakly fair execution of @main terminates, and every final state has every array of the region at what the library
    computes from the proof data and every other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument array is no array of the region and no line writes it: after the lines that follow the region it holds
    its launch contents. -/
theorem tail_arg0 (c : Dev nD) :
    Pipeline.afterTail₀ cfgs (dats m) 0 (V0 m) [hostOps1] c main_arg0 = m ((c.tc : Thread nD τ).loc main_arg0) := by
  unfold Pipeline.afterTail₀
  show StableHlo.after hostOps1 _ (Proc.devRef .tc main_arg0) = _
  after_results
  rw [Pipeline.withArrays_of_ne _ _ _ _ main_arg0 (by decide)]
  show StableHlo.after hostOps0 _ (Proc.devRef .tc main_arg0) = _
  after_results

/-- THE FRAME: @main runs to the end, nothing faults, and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (by decide)).trans (tail_arg0 m c)) (run_main m ρ)

end Cert.KernelIdeal.Frame

end
-- ==== Proof.BlockValue.lean ====
/-
  The input block of a grid point, element by element, as elements of the argument array (at the extended reals).

  The region's input array is the argument with depth and channel fused: its element (b, h, w, dc) is the argument's
  (b, h, w, dc / 64, dc % 64). Point `t = 4 b + hc` stages the block of batch `b` and heights `16 hc … 16 hc + 15`: the block's element
  (0, r, w, dc) is the argument's (t / 4, 16 (t % 4) + r, w, dc / 64, dc % 64). So a bound holds for every block element whose
  width, depth and channel satisfy a condition exactly when it holds for every argument element of that batch and height block
  whose width, depth and channel satisfy it (`blk_forall`).
-/
import proofs.«115212_j73418170957951_2_alg».proof.Proof.FrameKit
import Idealize.ShloMosaic.Lib.Pipeline.Value
import Idealize.ShloMosaic.Lib.ValueIdx
import Idealize.ShloMosaic.Lib.StableHlo.Run

set_option maxRecDepth 16384

noncomputable section

namespace Cert.KernelIdeal.KV

open Cert.KernelIdeal Cert.KernelIdeal.Gen Cert.KernelIdeal.Frame
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ)

/-- The argument array on core `c`. -/
abbrev X (c : Dev nD) : S4x64x64x64x64.Idx → EReal := m ((c.tc : Thread nD τ).loc main_arg0)

/-- The input block of point `t`, at its literal shape: sixteen heights × 64 widths × 4096 fused depth-channel lanes. -/
abbrev blk (c : Dev nD) (t : Fin cfg0.N) : Vec Ideal S1x16x64x4096 .f32 := iblk m c 0 t

/-- The region's input array is the argument reshaped. -/
theorem V_v0 (c : Dev nD) :
    (V m c main_v0 : S4x64x64x4096.Idx → EReal) = shapeCast S4x64x64x4096 (X m c) shapeCasts_S4x64x64x64x64_S4x64x64x4096 := by
  dsimp only [V, V0]
  simp only [List.flatten_cons, List.flatten_nil, List.append_nil]
  after_results
  rfl

/-- The reshape read at an index: depth and channel are the quotient and remainder of the fused coordinate by 64. -/
theorem reshape_apply (x : S4x64x64x64x64.Idx → EReal) (i : S4x64x64x4096.Idx) (k : S4x64x64x64x64.Idx)
    (h0 : (k 0).val = (i 0).val) (h1 : (k 1).val = (i 1).val) (h2 : (k 2).val = (i 2).val)
    (h3 : (k 3).val = (i 3).val / 64) (h4 : (k 4).val = (i 3).val % 64) :
    shapeCast S4x64x64x4096 x shapeCasts_S4x64x64x64x64_S4x64x64x4096 i = x k := by
  refine shapeCast_apply x shapeCasts_S4x64x64x64x64_S4x64x64x4096 i k ?_
  rewrite [Shape.rowMajor_val_five, Shape.rowMajor_val_four]
  show ((((k 0).val * 64 + (k 1).val) * 64 + (k 2).val) * 64 + (k 3).val) * 64 + (k 4).val
    = (((i 0).val * 64 + (i 1).val) * 64 + (i 2).val) * 4096 + (i 3).val
  omega

/-- The input window's block index at point `t`: batch `t / 4`, height block `t % 4`, the whole of the two trailing axes. -/
theorem idx0 : ∀ t : Fin cfg0.N, win0_0.index t 0 = t.val / 4 ∧ win0_0.index t 1 = t.val % 4 ∧ win0_0.index t 2 = 0 ∧ win0_0.index t 3 = 0 :=
  (by decide +kernel : ∀ t : Fin grid0.N, win0_0.index t 0 = t.val / 4 ∧ win0_0.index t 1 = t.val % 4 ∧ win0_0.index t 2 = 0 ∧ win0_0.index t 3 = 0)

/-- A block element is an argument element. -/
theorem iblk_apply (c : Dev nD) (t : Fin cfg0.N) (y : S1x16x64x4096.Idx) (k : S4x64x64x64x64.Idx)
    (h0 : (k 0).val = t.val / 4) (h1 : (k 1).val = 16 * (t.val % 4) + (y 1).val) (h2 : (k 2).val = (y 2).val)
    (h3 : (k 3).val = (y 3).val / 64) (h4 : (k 4).val = (y 3).val % 64) :
    blk m c t y = X m c k := by
  obtain ⟨e0, e1, e2, e3⟩ := idx0 t
  have y0 : (y 0).val < 1 := (y 0).isLt
  show V m c main_v0 (((cfg0.win 0).blk t).view.emb y) = _
  rw [V_v0]
  refine reshape_apply _ _ k ?_ ?_ ?_ ?_ ?_
  · show _ = win0_0.index t 0 * 1 + 1 * (y 0).val; rw [e0]; omega
  · show _ = win0_0.index t 1 * 16 + 1 * (y 1).val; rw [e1]; omega
  · show _ = win0_0.index t 2 * 64 + 1 * (y 2).val; rw [e2]; omega
  · show _ = (win0_0.index t 3 * 4096 + 1 * (y 3).val) / 64; rw [e3]; omega
  · show _ = (win0_0.index t 3 * 4096 + 1 * (y 3).val) % 64; rw [e3]; omega

/-- A bound on the block elements selected by a condition on width, depth and channel is the same bound on the argument
    elements of the point's batch and height block selected by it. -/
theorem blk_forall (c : Dev nD) (t : Fin cfg0.N) (R : ℕ → ℕ → ℕ → Prop) (z : EReal) :
    (∀ y : S1x16x64x4096.Idx, R (y 2).val ((y 3).val / 64) ((y 3).val % 64) → blk m c t y ≤ z)
      ↔ (∀ i : S4x64x64x64x64.Idx, (i 0).val = t.val / 4 → (i 1).val / 16 = t.val % 4 →
          R (i 2).val (i 3).val (i 4).val → X m c i ≤ z) := by
  have hN : t.val < 16 := lt_of_lt_of_eq t.isLt (show cfg0.N = 16 from N_0)
  constructor
  · intro h i h0 h1 hR
    have b1 : (i 1).val < 64 := (i 1).isLt
    have b2 : (i 2).val < 64 := (i 2).isLt
    have b3 : (i 3).val < 64 := (i 3).isLt
    have b4 : (i 4).val < 64 := (i 4).isLt
    obtain ⟨y, y1, y2, y3⟩ : ∃ y : S1x16x64x4096.Idx, (y 1).val = (i 1).val % 16 ∧ (y 2).val = (i 2).val
        ∧ (y 3).val = (i 3).val * 64 + (i 4).val :=
      ⟨ValueIdx.ix4 (⟨0, Nat.one_pos⟩ : Fin 1) (⟨(i 1).val % 16, by omega⟩ : Fin 16) (⟨(i 2).val, b2⟩ : Fin 64)
        (⟨(i 3).val * 64 + (i 4).val, by omega⟩ : Fin 4096), rfl, rfl, rfl⟩
    have hy := h y (by
      rw [y2, y3, show ((i 3).val * 64 + (i 4).val) / 64 = (i 3).val by omega, show ((i 3).val * 64 + (i 4).val) % 64 = (i 4).val by omega]
      exact hR)
    rwa [iblk_apply m c t y i h0 (by rw [y1]; omega) y2.symm (by rw [y3]; omega) (by rw [y3]; omega)] at hy
  · intro h y hR
    have c1 : (y 1).val < 16 := (y 1).isLt
    have c2 : (y 2).val < 64 := (y 2).isLt
    have c3 : (y 3).val < 4096 := (y 3).isLt
    rw [iblk_apply m c t y (ValueIdx.ix5 (⟨t.val / 4, by omega⟩ : Fin 4) (⟨16 * (t.val % 4) + (y 1).val, by omega⟩ : Fin 64)
      (⟨(y 2).val, c2⟩ : Fin 64) (⟨(y 3).val / 64, by omega⟩ : Fin 64) (⟨(y 3).val % 64, by omega⟩ : Fin 64)) rfl rfl rfl rfl rfl]
    exact h _ rfl (by show (16 * (t.val % 4) + (y 1).val) / 16 = t.val % 4; omega) hR

end Cert.KernelIdeal.KV

end
-- ==== Proof.Payload.lean ====
/-
  The kernel's stored values at the extended reals, by their universal property.

  One grid point loads a block `v0` over (1, height 16, width 64, depth * 64 + channel 4096) and computes, per channel,
  the maximum over the 16 heights and over bins of 16, 32 and 64 consecutive widths and depths (scales 4, 2 and 1), each as a
  chain of reshapes and one-axis maxima started from negative infinity; it then lays each result out as the output block and,
  on later grid points, takes the maximum with the block's previous contents.

  On the extended reals a maximum is determined by its upper bounds, so every value here is described by the statement
  "it is `≤ z` exactly when every entry of `v0` in its bin is `≤ z`". A one-axis maximum from the least element is `≤ z` iff
  each entry along the axis is; a reshape reads the operand at the index with the same row-major position. Each operation
  therefore turns the description of its operand into the description of its result, the index sets being related by
  division and remainder arithmetic, and no algebra of nested maxima is used.
-/
import proofs.«115212_j73418170957951_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayloadValue

open Cert.KernelIdeal Cert.KernelIdeal.Gen Idealize.ShloMosaic

/-- The word of negative infinity reads as the least extended real. -/
theorem ofBits_neg_inf : FloatOps.ofBits (F := Ideal) .f32 0xFF800000#32 = (⊥ : EReal) := by
  show Ideal.ofBits .f32 0xFF800000#32 = ⊥
  simp [Ideal.ofBits, Ideal.ieee]

/-- A maximum over one axis, started from negative infinity, is below a bound exactly when every entry along that axis is:
    the fold of `max` from the least element is below `z` iff each folded entry is. -/
theorem red_le {s t : Shape} {a : Fin s.rank} (src : FVec Ideal s .f32) (h : s.Reduces [a] t) (hφ : FKind.Formats .f32)
    (hacc : (0xFF800000#32 : BitVec 32) = FKind.maximumf.neutral .f32 hφ) (j : t.Idx) (z : EReal) :
    multiReduction (F := Ideal) .maximumf [a] t src 0xFF800000#32 h hφ hacc j ≤ z ↔ ∀ k : Fin (s.size a), src (h.lift j k) ≤ z := by
  rw [Ideal.multiReduction_maximumf_single src 0xFF800000#32 h hφ hacc j, Finset.fold_max_le, ofBits_neg_inf]
  constructor
  · intro H k; exact H.2 k (Finset.mem_univ k)
  · intro H; exact ⟨bot_le, fun k _ => H k⟩

/-- A reshape read at an index is the operand at the index with the same row-major position. -/
theorem cast_le {s t : Shape} (x : FVec Ideal s .f32) (h : s.ShapeCasts t) (j : t.Idx) (z : EReal) :
    ∃ k : s.Idx, (s.rowMajor k).val = (t.rowMajor j).val ∧ (shapeCast t x h j ≤ z ↔ x k ≤ z) :=
  ⟨Shape.reshapeEquiv h j, Shape.rowMajor_reshapeEquiv h j, Iff.rfl⟩

/-! ## The universal property, carried through the operations

Throughout, `v0` is the loaded block over (1, height 16, width 64, depth * 64 + channel) and `z` a bound. Every intermediate
value `x` is described by the entries of `v0` its element at an index is the maximum of: `x i ≤ z` iff every entry `v0 y` with `y`
in the set attached to `i` is `≤ z`. Each operation turns one such description into the next: a reshape re-indexes the set
(row-major arithmetic), a one-axis maximum takes the union over the reduced coordinate. -/

/-- The block itself: its entry at `i` is below `z` iff the entries at the indices with `i`'s coordinates are. -/
theorem base_le (v0 : Vec Ideal S1x16x64x4096 .f32) (z : EReal) (i : S1x16x64x4096.Idx) :
    v0 i ≤ z ↔ ∀ y : S1x16x64x4096.Idx, (y 0).val = (i 0).val → (y 1).val = (i 1).val → (y 2).val = (i 2).val →
      (y 3).val = (i 3).val → v0 y ≤ z := by
  constructor
  · intro H y h0 h1 h2 h3
    have e : y = i := funext fun c => Fin.ext (match c with | ⟨0, _⟩ => h0 | ⟨1, _⟩ => h1 | ⟨2, _⟩ => h2 | ⟨3, _⟩ => h3)
    rw [e]; exact H
  · intro H; exact H i rfl rfl rfl rfl

/-- Dropping the leading unit axis: [1,16,64,4096] → [16,64,4096]. -/
theorem castA (v0 : Vec Ideal S1x16x64x4096 .f32) (z : EReal) (x : FVec Ideal S1x16x64x4096 .f32)
    (hx : ∀ k : S1x16x64x4096.Idx, x k ≤ z ↔ ∀ y : S1x16x64x4096.Idx, (y 0).val = (k 0).val → (y 1).val = (k 1).val →
      (y 2).val = (k 2).val → (y 3).val = (k 3).val → v0 y ≤ z)
    (h : S1x16x64x4096.ShapeCasts S16x64x4096) (i : S16x64x4096.Idx) :
    shapeCast S16x64x4096 x h i ≤ z ↔ ∀ y : S1x16x64x4096.Idx, (y 1).val = (i 0).val → (y 2).val = (i 1).val →
      (y 3).val = (i 2).val → v0 y ≤ z := by
  obtain ⟨k, hk, e⟩ := cast_le x h i z
  rw [e, hx k]
  rw [Shape.rowMajor_val_four, Shape.rowMajor_val_three] at hk
  have hk' : (((k 0).val * 16 + (k 1).val) * 64 + (k 2).val) * 4096 + (k 3).val
      = ((i 0).val * 64 + (i 1).val) * 4096 + (i 2).val := hk
  have k0 : (k 0).val < 1 := (k 0).isLt
  have k1 : (k 1).val < 16 := (k 1).isLt
  have k2 : (k 2).val < 64 := (k 2).isLt
  have k3 : (k 3).val < 4096 := (k 3).isLt
  have i0 : (i 0).val < 16 := (i 0).isLt
  have i1 : (i 1).val < 64 := (i 1).isLt
  have i2 : (i 2).val < 4096 := (i 2).isLt
  constructor
  · intro H y h1 h2 h3
    have y0 : (y 0).val < 1 := (y 0).isLt
    exact H y (by omega) (by omega) (by omega) (by omega)
  · intro H y h0 h1 h2 h3
    exact H y (by omega) (by omega) (by omega)

/-- The maximum over the 16 heights: [16,64,4096] → [64,4096]. -/
theorem redA (v0 : Vec Ideal S1x16x64x4096 .f32) (z : EReal) (x : FVec Ideal S16x64x4096 .f32)
    (hx : ∀ i : S16x64x4096.Idx, x i ≤ z ↔ ∀ y : S1x16x64x4096.Idx, (y 1).val = (i 0).val → (y 2).val = (i 1).val →
      (y 3).val = (i 2).val → v0 y ≤ z)
    (h : S16x64x4096.Reduces [0] S64x4096) (hφ : FKind.Formats .f32)
    (hacc : (0xFF800000#32 : BitVec 32) = FKind.maximumf.neutral .f32 hφ) (j : S64x4096.Idx) :
    multiReduction (F := Ideal) .maximumf [0] S64x4096 x 0xFF800000#32 h hφ hacc j ≤ z ↔
      ∀ y : S1x16x64x4096.Idx, (y 2).val = (j 0).val → (y 3).val = (j 1).val → v0 y ≤ z := by
  refine (red_le x h hφ hacc j z).trans ?_
  constructor
  · intro H y h2 h3
    exact (hx _).mp (H ⟨(y 1).val, (y 1).isLt⟩) y rfl h2 h3
  · intro H k
    exact (hx _).mpr fun y _ h2 h3 => H y h2 h3

/-- Splitting width into (bin, offset) and depth * 64 + channel into (bin, offset, channel): [64,4096] → [4,16,4,16,64]. -/
theorem castB (v0 : Vec Ideal S1x16x64x4096 .f32) (z : EReal) (x : FVec Ideal S64x4096 .f32)
    (hx : ∀ j : S64x4096.Idx, x j ≤ z ↔ ∀ y : S1x16x64x4096.Idx, (y 2).val = (j 0).val → (y 3).val = (j 1).val → v0 y ≤ z)
    (h : S64x4096.ShapeCasts S4x16x4x16x64) (i : S4x16x4x16x64.Idx) :
    shapeCast S4x16x4x16x64 x h i ≤ z ↔ ∀ y : S1x16x64x4096.Idx, (y 2).val = (i 0).val * 16 + (i 1).val →
      (y 3).val = ((i 2).val * 16 + (i 3).val) * 64 + (i 4).val → v0 y ≤ z := by
  obtain ⟨k, hk, e⟩ := cast_le x h i z
  rw [e, hx k]
  rw [Shape.rowMajor_val_two, Shape.rowMajor_val_five] at hk
  have hk' : (k 0).val * 4096 + (k 1).val
      = ((((i 0).val * 16 + (i 1).val) * 4 + (i 2).val) * 16 + (i 3).val) * 64 + (i 4).val := hk
  have k1 : (k 1).val < 4096 := (k 1).isLt
  have i1 : (i 1).val < 16 := (i 1).isLt
  have i2 : (i 2).val < 4 := (i 2).isLt
  have i3 : (i 3).val < 16 := (i 3).isLt
  have i4 : (i 4).val < 64 := (i 4).isLt
  constructor
  · intro H y h2 h3
    exact H y (by omega) (by omega)
  · intro H y h2 h3
    exact H y (by omega) (by omega)

/-- The maximum over the 16 depths of a bin: [4,16,4,16,64] → [4,16,4,64]. -/
theorem redB (v0 : Vec Ideal S1x16x64x4096 .f32) (z : EReal) (x : FVec Ideal S4x16x4x16x64 .f32)
    (hx : ∀ i : S4x16x4x16x64.Idx, x i ≤ z ↔ ∀ y : S1x16x64x4096.Idx, (y 2).val = (i 0).val * 16 + (i 1).val →
      (y 3).val = ((i 2).val * 16 + (i 3).val) * 64 + (i 4).val → v0 y ≤ z)
    (h : S4x16x4x16x64.Reduces [3] S4x16x4x64) (hφ : FKind.Formats .f32)
    (hacc : (0xFF800000#32 : BitVec 32) = FKind.maximumf.neutral .f32 hφ) (j : S4x16x4x64.Idx) :
    multiReduction (F := Ideal) .maximumf [3] S4x16x4x64 x 0xFF800000#32 h hφ hacc j ≤ z ↔
      ∀ y : S1x16x64x4096.Idx, (y 2).val = (j 0).val * 16 + (j 1).val → (y 3).val / 64 / 16 = (j 2).val →
        (y 3).val % 64 = (j 3).val → v0 y ≤ z := by
  refine (red_le x h hφ hacc j z).trans ?_
  have j3 : (j 3).val < 64 := (j 3).isLt
  constructor
  · intro H y h2 h3 h4
    have y3 : (y 3).val < 4096 := (y 3).isLt
    exact (hx _).mp (H ⟨(y 3).val / 64 % 16, by show (y 3).val / 64 % 16 < 16; omega⟩) y h2
      (show (y 3).val = ((j 2).val * 16 + (y 3).val / 64 % 16) * 64 + (j 3).val by omega)
  · intro H k
    have hk : k.val < 16 := k.isLt
    refine (hx _).mpr fun y h2 h3 => ?_
    have h3' : (y 3).val = ((j 2).val * 16 + k.val) * 64 + (j 3).val := h3
    exact H y h2 (by omega) (by omega)

/-- The maximum over the 16 widths of a bin: [4,16,4,64] → [4,4,64]. -/
theorem redC (v0 : Vec Ideal S1x16x64x4096 .f32) (z : EReal) (x : FVec Ideal S4x16x4x64 .f32)
    (hx : ∀ i : S4x16x4x64.Idx, x i ≤ z ↔ ∀ y : S1x16x64x4096.Idx, (y 2).val = (i 0).val * 16 + (i 1).val →
      (y 3).val / 64 / 16 = (i 2).val → (y 3).val % 64 = (i 3).val → v0 y ≤ z)
    (h : S4x16x4x64.Reduces [1] S4x4x64) (hφ : FKind.Formats .f32)
    (hacc : (0xFF800000#32 : BitVec 32) = FKind.maximumf.neutral .f32 hφ) (j : S4x4x64.Idx) :
    multiReduction (F := Ideal) .maximumf [1] S4x4x64 x 0xFF800000#32 h hφ hacc j ≤ z ↔
      ∀ y : S1x16x64x4096.Idx, (y 2).val / 16 = (j 0).val → (y 3).val / 64 / 16 = (j 1).val →
        (y 3).val % 64 = (j 2).val → v0 y ≤ z := by
  refine (red_le x h hφ hacc j z).trans ?_
  constructor
  · intro H y h2 h3 h4
    exact (hx _).mp (H ⟨(y 2).val % 16, by show (y 2).val % 16 < 16; omega⟩) y
      (show (y 2).val = (j 0).val * 16 + (y 2).val % 16 by omega) h3 h4
  · intro H k
    have hk : k.val < 16 := k.isLt
    refine (hx _).mpr fun y h2 h3 h4 => ?_
    have h2' : (y 2).val = (j 0).val * 16 + k.val := h2
    exact H y (by omega) h3 h4

/-- The scale-4 value: the maximum over the 16 heights and a 16 × 16 bin of widths and depths. -/
theorem pay5_le (v0 : Vec Ideal S1x16x64x4096 .f32) (J : S4x4x64.Idx) (z : EReal) :
    k0_pay5 (F := Ideal) v0 J ≤ z ↔ ∀ y : S1x16x64x4096.Idx, (y 2).val / 16 = (J 0).val → (y 3).val / 64 / 16 = (J 1).val →
      (y 3).val % 64 = (J 2).val → v0 y ≤ z := by
  unfold k0_pay5
  exact redC v0 z _ (redB v0 z _ (castB v0 z _ (redA v0 z _ (castA v0 z v0 (base_le v0 z) _) _ _ _) _) _ _ _) _ _ _ J

/-- Splitting the 4 width bins into (pair, member): [4,4,64] → [2,2,4,64]. -/
theorem castC (v0 : Vec Ideal S1x16x64x4096 .f32) (z : EReal) (x : FVec Ideal S4x4x64 .f32)
    (hx : ∀ j : S4x4x64.Idx, x j ≤ z ↔ ∀ y : S1x16x64x4096.Idx, (y 2).val / 16 = (j 0).val → (y 3).val / 64 / 16 = (j 1).val →
      (y 3).val % 64 = (j 2).val → v0 y ≤ z)
    (h : S4x4x64.ShapeCasts S2x2x4x64) (i : S2x2x4x64.Idx) :
    shapeCast S2x2x4x64 x h i ≤ z ↔ ∀ y : S1x16x64x4096.Idx, (y 2).val / 16 = (i 0).val * 2 + (i 1).val →
      (y 3).val / 64 / 16 = (i 2).val → (y 3).val % 64 = (i 3).val → v0 y ≤ z := by
  obtain ⟨k, hk, e⟩ := cast_le x h i z
  rw [e, hx k]
  rw [Shape.rowMajor_val_three, Shape.rowMajor_val_four] at hk
  have hk' : ((k 0).val * 4 + (k 1).val) * 64 + (k 2).val
      = (((i 0).val * 2 + (i 1).val) * 4 + (i 2).val) * 64 + (i 3).val := hk
  have k1 : (k 1).val < 4 := (k 1).isLt
  have k2 : (k 2).val < 64 := (k 2).isLt
  have i2 : (i 2).val < 4 := (i 2).isLt
  have i3 : (i 3).val < 64 := (i 3).isLt
  constructor
  · intro H y h2 h3 h4
    exact H y (by omega) (by omega) (by omega)
  · intro H y h2 h3 h4
    exact H y (by omega) (by omega) (by omega)

/-- The maximum over the two width bins of a pair: [2,2,4,64] → [2,4,64]. -/
theorem redD (v0 : Vec Ideal S1x16x64x4096 .f32) (z : EReal) (x : FVec Ideal S2x2x4x64 .f32)
    (hx : ∀ i : S2x2x4x64.Idx, x i ≤ z ↔ ∀ y : S1x16x64x4096.Idx, (y 2).val / 16 = (i 0).val * 2 + (i 1).val →
      (y 3).val / 64 / 16 = (i 2).val → (y 3).val % 64 = (i 3).val → v0 y ≤ z)
    (h : S2x2x4x64.Reduces [1] S2x4x64) (hφ : FKind.Formats .f32)
    (hacc : (0xFF800000#32 : BitVec 32) = FKind.maximumf.neutral .f32 hφ) (j : S2x4x64.Idx) :
    multiReduction (F := Ideal) .maximumf [1] S2x4x64 x 0xFF800000#32 h hφ hacc j ≤ z ↔
      ∀ y : S1x16x64x4096.Idx, (y 2).val / 32 = (j 0).val → (y 3).val / 64 / 16 = (j 1).val →
        (y 3).val % 64 = (j 2).val → v0 y ≤ z := by
  refine (red_le x h hφ hacc j z).trans ?_
  constructor
  · intro H y h2 h3 h4
    exact (hx _).mp (H ⟨(y 2).val / 16 % 2, by show (y 2).val / 16 % 2 < 2; omega⟩) y
      (show (y 2).val / 16 = (j 0).val * 2 + (y 2).val / 16 % 2 by omega) h3 h4
  · intro H k
    have hk : k.val < 2 := k.isLt
    refine (hx _).mpr fun y h2 h3 h4 => ?_
    have h2' : (y 2).val / 16 = (j 0).val * 2 + k.val := h2
    exact H y (by omega) h3 h4

/-- Splitting the 4 depth bins into (pair, member): [2,4,64] → [2,2,2,64]. -/
theorem castD (v0 : Vec Ideal S1x16x64x4096 .f32) (z : EReal) (x : FVec Ideal S2x4x64 .f32)
    (hx : ∀ j : S2x4x64.Idx, x j ≤ z ↔ ∀ y : S1x16x64x4096.Idx, (y 2).val / 32 = (j 0).val → (y 3).val / 64 / 16 = (j 1).val →
      (y 3).val % 64 = (j 2).val → v0 y ≤ z)
    (h : S2x4x64.ShapeCasts S2x2x2x64) (i : S2x2x2x64.Idx) :
    shapeCast S2x2x2x64 x h i ≤ z ↔ ∀ y : S1x16x64x4096.Idx, (y 2).val / 32 = (i 0).val →
      (y 3).val / 64 / 16 = (i 1).val * 2 + (i 2).val → (y 3).val % 64 = (i 3).val → v0 y ≤ z := by
  obtain ⟨k, hk, e⟩ := cast_le x h i z
  rw [e, hx k]
  rw [Shape.rowMajor_val_three, Shape.rowMajor_val_four] at hk
  have hk' : ((k 0).val * 4 + (k 1).val) * 64 + (k 2).val
      = (((i 0).val * 2 + (i 1).val) * 2 + (i 2).val) * 64 + (i 3).val := hk
  have k1 : (k 1).val < 4 := (k 1).isLt
  have k2 : (k 2).val < 64 := (k 2).isLt
  have i1 : (i 1).val < 2 := (i 1).isLt
  have i2 : (i 2).val < 2 := (i 2).isLt
  have i3 : (i 3).val < 64 := (i 3).isLt
  constructor
  · intro H y h2 h3 h4
    exact H y (by omega) (by omega) (by omega)
  · intro H y h2 h3 h4
    exact H y (by omega) (by omega) (by omega)

/-- The maximum over the two depth bins of a pair: [2,2,2,64] → [2,2,64]. -/
theorem redE (v0 : Vec Ideal S1x16x64x4096 .f32) (z : EReal) (x : FVec Ideal S2x2x2x64 .f32)
    (hx : ∀ i : S2x2x2x64.Idx, x i ≤ z ↔ ∀ y : S1x16x64x4096.Idx, (y 2).val / 32 = (i 0).val →
      (y 3).val / 64 / 16 = (i 1).val * 2 + (i 2).val → (y 3).val % 64 = (i 3).val → v0 y ≤ z)
    (h : S2x2x2x64.Reduces [2] S2x2x64) (hφ : FKind.Formats .f32)
    (hacc : (0xFF800000#32 : BitVec 32) = FKind.maximumf.neutral .f32 hφ) (j : S2x2x64.Idx) :
    multiReduction (F := Ideal) .maximumf [2] S2x2x64 x 0xFF800000#32 h hφ hacc j ≤ z ↔
      ∀ y : S1x16x64x4096.Idx, (y 2).val / 32 = (j 0).val → (y 3).val / 64 / 32 = (j 1).val →
        (y 3).val % 64 = (j 2).val → v0 y ≤ z := by
  refine (red_le x h hφ hacc j z).trans ?_
  constructor
  · intro H y h2 h3 h4
    exact (hx _).mp (H ⟨(y 3).val / 64 / 16 % 2, by show (y 3).val / 64 / 16 % 2 < 2; omega⟩) y h2
      (show (y 3).val / 64 / 16 = (j 1).val * 2 + (y 3).val / 64 / 16 % 2 by omega) h4
  · intro H k
    have hk : k.val < 2 := k.isLt
    refine (hx _).mpr fun y h2 h3 h4 => ?_
    have h3' : (y 3).val / 64 / 16 = (j 1).val * 2 + k.val := h3
    exact H y h2 (by omega) h4

/-- The scale-2 value: the maximum over the 16 heights and a 32 × 32 bin of widths and depths. -/
theorem pay6_le (v0 : Vec Ideal S1x16x64x4096 .f32) (J : S2x2x64.Idx) (z : EReal) :
    k0_pay6 (F := Ideal) v0 J ≤ z ↔ ∀ y : S1x16x64x4096.Idx, (y 2).val / 32 = (J 0).val → (y 3).val / 64 / 32 = (J 1).val →
      (y 3).val % 64 = (J 2).val → v0 y ≤ z := by
  unfold k0_pay6
  exact redE v0 z _ (castD v0 z _ (redD v0 z _ (castC v0 z _ (fun j => pay5_le v0 j z) _) _ _ _) _) _ _ _ J

/-- Adding a leading unit axis: [2,2,64] → [1,2,2,64]. -/
theorem castE (v0 : Vec Ideal S1x16x64x4096 .f32) (z : EReal) (x : FVec Ideal S2x2x64 .f32)
    (hx : ∀ j : S2x2x64.Idx, x j ≤ z ↔ ∀ y : S1x16x64x4096.Idx, (y 2).val / 32 = (j 0).val → (y 3).val / 64 / 32 = (j 1).val →
      (y 3).val % 64 = (j 2).val → v0 y ≤ z)
    (h : S2x2x64.ShapeCasts S1x2x2x64) (i : S1x2x2x64.Idx) :
    shapeCast S1x2x2x64 x h i ≤ z ↔ ∀ y : S1x16x64x4096.Idx, (y 2).val / 32 = (i 1).val →
      (y 3).val / 64 / 32 = (i 2).val → (y 3).val % 64 = (i 3).val → v0 y ≤ z := by
  obtain ⟨k, hk, e⟩ := cast_le x h i z
  rw [e, hx k]
  rw [Shape.rowMajor_val_three, Shape.rowMajor_val_four] at hk
  have hk' : ((k 0).val * 2 + (k 1).val) * 64 + (k 2).val
      = (((i 0).val * 2 + (i 1).val) * 2 + (i 2).val) * 64 + (i 3).val := hk
  have k1 : (k 1).val < 2 := (k 1).isLt
  have k2 : (k 2).val < 64 := (k 2).isLt
  have i0 : (i 0).val < 1 := (i 0).isLt
  have i1 : (i 1).val < 2 := (i 1).isLt
  have i2 : (i 2).val < 2 := (i 2).isLt
  have i3 : (i 3).val < 64 := (i 3).isLt
  constructor
  · intro H y h2 h3 h4
    exact H y (by omega) (by omega) (by omega)
  · intro H y h2 h3 h4
    exact H y (by omega) (by omega) (by omega)

/-- The maximum over the two halves of the width: [1,2,2,64] → [1,2,64]. -/
theorem redF (v0 : Vec Ideal S1x16x64x4096 .f32) (z : EReal) (x : FVec Ideal S1x2x2x64 .f32)
    (hx : ∀ i : S1x2x2x64.Idx, x i ≤ z ↔ ∀ y : S1x16x64x4096.Idx, (y 2).val / 32 = (i 1).val →
      (y 3).val / 64 / 32 = (i 2).val → (y 3).val % 64 = (i 3).val → v0 y ≤ z)
    (h : S1x2x2x64.Reduces [1] S1x2x64) (hφ : FKind.Formats .f32)
    (hacc : (0xFF800000#32 : BitVec 32) = FKind.maximumf.neutral .f32 hφ) (j : S1x2x64.Idx) :
    multiReduction (F := Ideal) .maximumf [1] S1x2x64 x 0xFF800000#32 h hφ hacc j ≤ z ↔
      ∀ y : S1x16x64x4096.Idx, (y 3).val / 64 / 32 = (j 1).val → (y 3).val % 64 = (j 2).val → v0 y ≤ z := by
  refine (red_le x h hφ hacc j z).trans ?_
  constructor
  · intro H y h3 h4
    have y2 : (y 2).val < 64 := (y 2).isLt
    exact (hx _).mp (H ⟨(y 2).val / 32, by show (y 2).val / 32 < 2; omega⟩) y rfl h3 h4
  · intro H k
    exact (hx _).mpr fun y _ h3 h4 => H y h3 h4

/-- Adding a unit axis: [1,2,64] → [1,1,2,64]. -/
theorem castF (v0 : Vec Ideal S1x16x64x4096 .f32) (z : EReal) (x : FVec Ideal S1x2x64 .f32)
    (hx : ∀ j : S1x2x64.Idx, x j ≤ z ↔ ∀ y : S1x16x64x4096.Idx, (y 3).val / 64 / 32 = (j 1).val →
      (y 3).val % 64 = (j 2).val → v0 y ≤ z)
    (h : S1x2x64.ShapeCasts S1x1x2x64) (i : S1x1x2x64.Idx) :
    shapeCast S1x1x2x64 x h i ≤ z ↔ ∀ y : S1x16x64x4096.Idx, (y 3).val / 64 / 32 = (i 2).val →
      (y 3).val % 64 = (i 3).val → v0 y ≤ z := by
  obtain ⟨k, hk, e⟩ := cast_le x h i z
  rw [e, hx k]
  rw [Shape.rowMajor_val_three, Shape.rowMajor_val_four] at hk
  have hk' : ((k 0).val * 2 + (k 1).val) * 64 + (k 2).val
      = (((i 0).val * 1 + (i 1).val) * 2 + (i 2).val) * 64 + (i 3).val := hk
  have k0 : (k 0).val < 1 := (k 0).isLt
  have k1 : (k 1).val < 2 := (k 1).isLt
  have k2 : (k 2).val < 64 := (k 2).isLt
  have i0 : (i 0).val < 1 := (i 0).isLt
  have i1 : (i 1).val < 1 := (i 1).isLt
  have i2 : (i 2).val < 2 := (i 2).isLt
  have i3 : (i 3).val < 64 := (i 3).isLt
  constructor
  · intro H y h3 h4
    exact H y (by omega) (by omega)
  · intro H y h3 h4
    exact H y (by omega) (by omega)

/-- The maximum over the two halves of the depth: [1,1,2,64] → [1,1,64]. -/
theorem redG (v0 : Vec Ideal S1x16x64x4096 .f32) (z : EReal) (x : FVec Ideal S1x1x2x64 .f32)
    (hx : ∀ i : S1x1x2x64.Idx, x i ≤ z ↔ ∀ y : S1x16x64x4096.Idx, (y 3).val / 64 / 32 = (i 2).val →
      (y 3).val % 64 = (i 3).val → v0 y ≤ z)
    (h : S1x1x2x64.Reduces [2] S1x1x64) (hφ : FKind.Formats .f32)
    (hacc : (0xFF800000#32 : BitVec 32) = FKind.maximumf.neutral .f32 hφ) (j : S1x1x64.Idx) :
    multiReduction (F := Ideal) .maximumf [2] S1x1x64 x 0xFF800000#32 h hφ hacc j ≤ z ↔
      ∀ y : S1x16x64x4096.Idx, (y 3).val % 64 = (j 2).val → v0 y ≤ z := by
  refine (red_le x h hφ hacc j z).trans ?_
  constructor
  · intro H y h4
    have y3 : (y 3).val < 4096 := (y 3).isLt
    exact (hx _).mp (H ⟨(y 3).val / 64 / 32, by show (y 3).val / 64 / 32 < 2; omega⟩) y rfl h4
  · intro H k
    exact (hx _).mpr fun y _ h4 => H y h4

/-- The scale-1 value: the maximum over the 16 heights and every width and depth. -/
theorem pay7_le (v0 : Vec Ideal S1x16x64x4096 .f32) (J : S1x1x64.Idx) (z : EReal) :
    k0_pay7 (F := Ideal) v0 J ≤ z ↔ ∀ y : S1x16x64x4096.Idx, (y 3).val % 64 = (J 2).val → v0 y ≤ z := by
  unfold k0_pay7
  exact redG v0 z _ (castF v0 z _ (redF v0 z _ (castE v0 z _ (fun j => pay6_le v0 j z) _) _ _ _) _) _ _ _ J

/-- Adding a unit axis: [1,1,64] → [1,1,1,64]. -/
theorem castG (v0 : Vec Ideal S1x16x64x4096 .f32) (z : EReal) (x : FVec Ideal S1x1x64 .f32)
    (hx : ∀ j : S1x1x64.Idx, x j ≤ z ↔ ∀ y : S1x16x64x4096.Idx, (y 3).val % 64 = (j 2).val → v0 y ≤ z)
    (h : S1x1x64.ShapeCasts S1x1x1x64) (i : S1x1x1x64.Idx) :
    shapeCast S1x1x1x64 x h i ≤ z ↔ ∀ y : S1x16x64x4096.Idx, (y 3).val % 64 = (i 3).val → v0 y ≤ z := by
  obtain ⟨k, hk, e⟩ := cast_le x h i z
  rw [e, hx k]
  rw [Shape.rowMajor_val_three, Shape.rowMajor_val_four] at hk
  have hk' : ((k 0).val * 1 + (k 1).val) * 64 + (k 2).val
      = (((i 0).val * 1 + (i 1).val) * 1 + (i 2).val) * 64 + (i 3).val := hk
  have k0 : (k 0).val < 1 := (k 0).isLt
  have k1 : (k 1).val < 1 := (k 1).isLt
  have k2 : (k 2).val < 64 := (k 2).isLt
  have i0 : (i 0).val < 1 := (i 0).isLt
  have i1 : (i 1).val < 1 := (i 1).isLt
  have i2 : (i 2).val < 1 := (i 2).isLt
  have i3 : (i 3).val < 64 := (i 3).isLt
  constructor
  · intro H y h4
    exact H y (by omega)
  · intro H y h4
    exact H y (by omega)

/-- Adding a unit axis: [1,1,1,64] → [1,1,1,1,64]. -/
theorem castH (v0 : Vec Ideal S1x16x64x4096 .f32) (z : EReal) (x : FVec Ideal S1x1x1x64 .f32)
    (hx : ∀ j : S1x1x1x64.Idx, x j ≤ z ↔ ∀ y : S1x16x64x4096.Idx, (y 3).val % 64 = (j 3).val → v0 y ≤ z)
    (h : S1x1x1x64.ShapeCasts S1x1x1x1x64) (i : S1x1x1x1x64.Idx) :
    shapeCast S1x1x1x1x64 x h i ≤ z ↔ ∀ y : S1x16x64x4096.Idx, (y 3).val % 64 = (i 4).val → v0 y ≤ z := by
  obtain ⟨k, hk, e⟩ := cast_le x h i z
  rw [e, hx k]
  rw [Shape.rowMajor_val_four, Shape.rowMajor_val_five] at hk
  have hk' : (((k 0).val * 1 + (k 1).val) * 1 + (k 2).val) * 64 + (k 3).val
      = ((((i 0).val * 1 + (i 1).val) * 1 + (i 2).val) * 1 + (i 3).val) * 64 + (i 4).val := hk
  have k0 : (k 0).val < 1 := (k 0).isLt
  have k1 : (k 1).val < 1 := (k 1).isLt
  have k2 : (k 2).val < 1 := (k 2).isLt
  have k3 : (k 3).val < 64 := (k 3).isLt
  have i0 : (i 0).val < 1 := (i 0).isLt
  have i1 : (i 1).val < 1 := (i 1).isLt
  have i2 : (i 2).val < 1 := (i 2).isLt
  have i3 : (i 3).val < 1 := (i 3).isLt
  have i4 : (i 4).val < 64 := (i 4).isLt
  constructor
  · intro H y h4
    exact H y (by omega)
  · intro H y h4
    exact H y (by omega)

/-- The scale-1 value laid out as the output block. -/
theorem pay8_le (v0 : Vec Ideal S1x16x64x4096 .f32) (Y : S1x1x1x1x64.Idx) (z : EReal) :
    k0_pay8 (F := Ideal) v0 Y ≤ z ↔ ∀ y : S1x16x64x4096.Idx, (y 3).val % 64 = (Y 4).val → v0 y ≤ z := by
  unfold k0_pay8
  exact castH v0 z _ (castG v0 z _ (fun j => pay7_le v0 j z) _) _ Y

/-- Adding a unit axis: [1,2,2,64] → [1,1,2,2,64]. -/
theorem castJ (v0 : Vec Ideal S1x16x64x4096 .f32) (z : EReal) (x : FVec Ideal S1x2x2x64 .f32)
    (hx : ∀ j : S1x2x2x64.Idx, x j ≤ z ↔ ∀ y : S1x16x64x4096.Idx, (y 2).val / 32 = (j 1).val →
      (y 3).val / 64 / 32 = (j 2).val → (y 3).val % 64 = (j 3).val → v0 y ≤ z)
    (h : S1x2x2x64.ShapeCasts S1x1x2x2x64) (i : S1x1x2x2x64.Idx) :
    shapeCast S1x1x2x2x64 x h i ≤ z ↔ ∀ y : S1x16x64x4096.Idx, (y 2).val / 32 = (i 2).val →
      (y 3).val / 64 / 32 = (i 3).val → (y 3).val % 64 = (i 4).val → v0 y ≤ z := by
  obtain ⟨k, hk, e⟩ := cast_le x h i z
  rw [e, hx k]
  rw [Shape.rowMajor_val_four, Shape.rowMajor_val_five] at hk
  have hk' : (((k 0).val * 2 + (k 1).val) * 2 + (k 2).val) * 64 + (k 3).val
      = ((((i 0).val * 1 + (i 1).val) * 2 + (i 2).val) * 2 + (i 3).val) * 64 + (i 4).val := hk
  have k0 : (k 0).val < 1 := (k 0).isLt
  have k1 : (k 1).val < 2 := (k 1).isLt
  have k2 : (k 2).val < 2 := (k 2).isLt
  have k3 : (k 3).val < 64 := (k 3).isLt
  have i0 : (i 0).val < 1 := (i 0).isLt
  have i1 : (i 1).val < 1 := (i 1).isLt
  have i2 : (i 2).val < 2 := (i 2).isLt
  have i3 : (i 3).val < 2 := (i 3).isLt
  have i4 : (i 4).val < 64 := (i 4).isLt
  constructor
  · intro H y h2 h3 h4
    exact H y (by omega) (by omega) (by omega)
  · intro H y h2 h3 h4
    exact H y (by omega) (by omega) (by omega)

/-- The scale-2 value laid out as the output block. -/
theorem pay1_le (v0 : Vec Ideal S1x16x64x4096 .f32) (Y : S1x1x2x2x64.Idx) (z : EReal) :
    k0_pay1 (F := Ideal) (k0_pay6 v0) Y ≤ z ↔ ∀ y : S1x16x64x4096.Idx, (y 2).val / 32 = (Y 2).val →
      (y 3).val / 64 / 32 = (Y 3).val → (y 3).val % 64 = (Y 4).val → v0 y ≤ z := by
  unfold k0_pay1
  exact castJ v0 z _ (castE v0 z _ (fun j => pay6_le v0 j z) _) _ Y

/-- Adding a leading unit axis: [4,4,64] → [1,4,4,64]. -/
theorem castL (v0 : Vec Ideal S1x16x64x4096 .f32) (z : EReal) (x : FVec Ideal S4x4x64 .f32)
    (hx : ∀ j : S4x4x64.Idx, x j ≤ z ↔ ∀ y : S1x16x64x4096.Idx, (y 2).val / 16 = (j 0).val → (y 3).val / 64 / 16 = (j 1).val →
      (y 3).val % 64 = (j 2).val → v0 y ≤ z)
    (h : S4x4x64.ShapeCasts S1x4x4x64) (i : S1x4x4x64.Idx) :
    shapeCast S1x4x4x64 x h i ≤ z ↔ ∀ y : S1x16x64x4096.Idx, (y 2).val / 16 = (i 1).val →
      (y 3).val / 64 / 16 = (i 2).val → (y 3).val % 64 = (i 3).val → v0 y ≤ z := by
  obtain ⟨k, hk, e⟩ := cast_le x h i z
  rw [e, hx k]
  rw [Shape.rowMajor_val_three, Shape.rowMajor_val_four] at hk
  have hk' : ((k 0).val * 4 + (k 1).val) * 64 + (k 2).val
      = (((i 0).val * 4 + (i 1).val) * 4 + (i 2).val) * 64 + (i 3).val := hk
  have k1 : (k 1).val < 4 := (k 1).isLt
  have k2 : (k 2).val < 64 := (k 2).isLt
  have i0 : (i 0).val < 1 := (i 0).isLt
  have i1 : (i 1).val < 4 := (i 1).isLt
  have i2 : (i 2).val < 4 := (i 2).isLt
  have i3 : (i 3).val < 64 := (i 3).isLt
  constructor
  · intro H y h2 h3 h4
    exact H y (by omega) (by omega) (by omega)
  · intro H y h2 h3 h4
    exact H y (by omega) (by omega) (by omega)

/-- Adding a unit axis: [1,4,4,64] → [1,1,4,4,64]. -/
theorem castM (v0 : Vec Ideal S1x16x64x4096 .f32) (z : EReal) (x : FVec Ideal S1x4x4x64 .f32)
    (hx : ∀ j : S1x4x4x64.Idx, x j ≤ z ↔ ∀ y : S1x16x64x4096.Idx, (y 2).val / 16 = (j 1).val →
      (y 3).val / 64 / 16 = (j 2).val → (y 3).val % 64 = (j 3).val → v0 y ≤ z)
    (h : S1x4x4x64.ShapeCasts S1x1x4x4x64) (i : S1x1x4x4x64.Idx) :
    shapeCast S1x1x4x4x64 x h i ≤ z ↔ ∀ y : S1x16x64x4096.Idx, (y 2).val / 16 = (i 2).val →
      (y 3).val / 64 / 16 = (i 3).val → (y 3).val % 64 = (i 4).val → v0 y ≤ z := by
  obtain ⟨k, hk, e⟩ := cast_le x h i z
  rw [e, hx k]
  rw [Shape.rowMajor_val_four, Shape.rowMajor_val_five] at hk
  have hk' : (((k 0).val * 4 + (k 1).val) * 4 + (k 2).val) * 64 + (k 3).val
      = ((((i 0).val * 1 + (i 1).val) * 4 + (i 2).val) * 4 + (i 3).val) * 64 + (i 4).val := hk
  have k0 : (k 0).val < 1 := (k 0).isLt
  have k1 : (k 1).val < 4 := (k 1).isLt
  have k2 : (k 2).val < 4 := (k 2).isLt
  have k3 : (k 3).val < 64 := (k 3).isLt
  have i0 : (i 0).val < 1 := (i 0).isLt
  have i1 : (i 1).val < 1 := (i 1).isLt
  have i2 : (i 2).val < 4 := (i 2).isLt
  have i3 : (i 3).val < 4 := (i 3).isLt
  have i4 : (i 4).val < 64 := (i 4).isLt
  constructor
  · intro H y h2 h3 h4
    exact H y (by omega) (by omega) (by omega)
  · intro H y h2 h3 h4
    exact H y (by omega) (by omega) (by omega)

/-- The scale-4 value laid out as the output block. -/
theorem pay3_le (v0 : Vec Ideal S1x16x64x4096 .f32) (Y : S1x1x4x4x64.Idx) (z : EReal) :
    k0_pay3 (F := Ideal) (k0_pay5 v0) Y ≤ z ↔ ∀ y : S1x16x64x4096.Idx, (y 2).val / 16 = (Y 2).val →
      (y 3).val / 64 / 16 = (Y 3).val → (y 3).val % 64 = (Y 4).val → v0 y ≤ z := by
  unfold k0_pay3
  exact castM v0 z _ (castL v0 z _ (fun j => pay5_le v0 j z) _) _ Y

/-! ## The running maximum with the block's previous contents -/

/-- The previous contents reshaped, the elementwise maximum taken with a new value, and the result reshaped back: at an
    index, the maximum of the previous entry there and the new value reshaped. -/
theorem cast_max {s t : Shape} (p : FVec Ideal t .f32) (r : FVec Ideal s .f32) (h1 : t.ShapeCasts s) (h3 : s.ShapeCasts t)
    (Y : t.Idx) : shapeCast t (maximumf (shapeCast s p h1) r) h3 Y = max (p Y) (shapeCast t r h3 Y) := by
  have e : shapeCast t (shapeCast s p h1) h3 Y = p Y := congrFun (shapeCast_shapeCast p h1 h3) Y
  rw [← e]
  rfl

/-- Scale 1, accumulated: the maximum of the previous entry and the scale-1 value. -/
theorem pay9_le (v0 : Vec Ideal S1x16x64x4096 .f32) (prev : Vec Ideal S1x1x1x1x64 .f32) (Y : S1x1x1x1x64.Idx) (z : EReal) :
    k0_pay9 (F := Ideal) v0 prev Y ≤ z ↔ prev Y ≤ z ∧ ∀ y : S1x16x64x4096.Idx, (y 3).val % 64 = (Y 4).val → v0 y ≤ z := by
  have e : k0_pay9 (F := Ideal) v0 prev Y = max (prev Y) (k0_pay8 (F := Ideal) v0 Y) := by
    unfold k0_pay9 k0_pay8
    generalize k0_pay7 (F := Ideal) v0 = r
    exact cast_max prev _ _ _ Y
  rw [e, max_le_iff, pay8_le]

/-- Scale 2, accumulated. -/
theorem pay2_le (v0 : Vec Ideal S1x16x64x4096 .f32) (prev : Vec Ideal S1x1x2x2x64 .f32) (Y : S1x1x2x2x64.Idx) (z : EReal) :
    k0_pay2 (F := Ideal) (k0_pay6 v0) prev Y ≤ z ↔ prev Y ≤ z ∧ ∀ y : S1x16x64x4096.Idx, (y 2).val / 32 = (Y 2).val →
      (y 3).val / 64 / 32 = (Y 3).val → (y 3).val % 64 = (Y 4).val → v0 y ≤ z := by
  have e : k0_pay2 (F := Ideal) (k0_pay6 v0) prev Y = max (prev Y) (k0_pay1 (F := Ideal) (k0_pay6 v0) Y) := by
    unfold k0_pay2 k0_pay1
    generalize k0_pay6 (F := Ideal) v0 = r
    exact cast_max prev _ _ _ Y
  rw [e, max_le_iff, pay1_le]

/-- Scale 4, accumulated. -/
theorem pay4_le (v0 : Vec Ideal S1x16x64x4096 .f32) (prev : Vec Ideal S1x1x4x4x64 .f32) (Y : S1x1x4x4x64.Idx) (z : EReal) :
    k0_pay4 (F := Ideal) (k0_pay5 v0) prev Y ≤ z ↔ prev Y ≤ z ∧ ∀ y : S1x16x64x4096.Idx, (y 2).val / 16 = (Y 2).val →
      (y 3).val / 64 / 16 = (Y 3).val → (y 3).val % 64 = (Y 4).val → v0 y ≤ z := by
  have e : k0_pay4 (F := Ideal) (k0_pay5 v0) prev Y = max (prev Y) (k0_pay3 (F := Ideal) (k0_pay5 v0) Y) := by
    unfold k0_pay4 k0_pay3
    generalize k0_pay5 (F := Ideal) v0 = r
    exact cast_max prev _ _ _ Y
  rw [e, max_le_iff, pay3_le]

end Cert.KernelIdeal.PayloadValue

end
-- ==== Proof.Pool.lean ====
/-
  A pooled maximum, by its universal property.

  The input is an array `x` over (batch, height, width, depth, channel) = 4 × 64 × 64 × 64 × 64. For a scale `p` dividing 64,
  with bins of `q = 64 / p` consecutive positions along each of the three spatial axes, the pooled array `v` over
  4 × p × p × p × 64 holds at (b, i, j, k, c) the maximum of `x (b, h, w, d, c)` over the bin `h / q = i`, `w / q = j`, `d / q = k`.
  On the extended reals a maximum over a finite non-empty set is determined by what it is bounded by: `v` is the pooled maximum
  exactly when, for every bound `z`, `v (b, i, j, k, c) ≤ z` holds iff every entry of the bin is `≤ z`. Two arrays with this
  property are equal (`IsPool.unique`): no algebra of nested or regrouped maxima is needed beyond it, and no finiteness.
-/
import Idealize.ShloMosaic.PureOps.Ideal
import Idealize.ShloMosaic.Lib.ValueIdx

noncomputable section

namespace Cert.Pool

open Idealize.ShloMosaic

/-- The input's shape: batch, height, width, depth, channel. -/
abbrev SX : Shape := ⟨5, ![4, 64, 64, 64, 64]⟩
/-- The pooled array's shape at scale `p`. -/
abbrev SO (p : ℕ) : Shape := ⟨5, ![4, p, p, p, 64]⟩

/-- `v` is the maximum of `x` over bins of `q` consecutive positions along height, width and depth, batch and channel kept:
    `v j` is below a bound exactly when every entry of `j`'s bin is. -/
def IsPool (p q : ℕ) (x : SX.Idx → EReal) (v : (SO p).Idx → EReal) : Prop :=
  ∀ (j : (SO p).Idx) (z : EReal), v j ≤ z ↔
    ∀ i : SX.Idx, (i 0).val = (j 0).val → (i 1).val / q = (j 1).val → (i 2).val / q = (j 2).val →
      (i 3).val / q = (j 3).val → (i 4).val = (j 4).val → x i ≤ z

/-- The pooled maximum is unique: each of two candidates is below the other, taking the other as the bound. -/
theorem IsPool.unique {p q : ℕ} {x : SX.Idx → EReal} {v v' : (SO p).Idx → EReal}
    (h : IsPool p q x v) (h' : IsPool p q x v') : v = v' := by
  funext j
  apply le_antisymm
  · exact (h j (v' j)).mpr ((h' j (v' j)).mp le_rfl)
  · exact (h' j (v j)).mpr ((h j (v j)).mp le_rfl)

end Cert.Pool

end
-- ==== Proof.ArrayValue.lean ====
/-
  Each output array of the region, after the run, is the pooled maximum of the argument at its scale (at the extended reals).

  An output array's block is written back exactly once: the finest scale's block (b, hc) after point `4 b + hc`; the middle
  scale's block (b, i) after the odd point `4 b + 2 i + 1`, when its buffer holds the `max` of the pooled blocks of the height blocks
  `2 i` and `2 i + 1`; the coarsest scale's block b after point `4 b + 3`, when its buffer holds the `max` over all four height blocks.
  Unrolling the joins back to the reset, the written block is bounded by `z` exactly when every block element of the contributing
  points in its width, depth and channel bin is; a block element is an argument element (BlockValue), and the height blocks
  of the contributing points make up exactly the array element's height bin. A property of every written element is a
  property of the final array's element it covers.
-/
import proofs.«115212_j73418170957951_2_alg».proof.Proof.FrameRun
import proofs.«115212_j73418170957951_2_alg».proof.Proof.BlockValue
import proofs.«115212_j73418170957951_2_alg».proof.Proof.Payload
import proofs.«115212_j73418170957951_2_alg».proof.Proof.Pool

set_option maxRecDepth 16384

noncomputable section

namespace Cert.KernelIdeal.KV

open Cert.KernelIdeal Cert.KernelIdeal.Gen Cert.KernelIdeal.Frame
open Idealize.ShloMosaic Idealize.ShloMosaic.TcCoe Idealize.SL.Sem Idealize.ShloMosaic.StableHlo
open Idealize.ShloMosaic.Pipeline (Dat Cfg Window)

open Cert.KernelIdeal.PayloadValue

variable (m : (ℓ : Loc nD τ sig) → Buf (Elt Ideal) ℓ)

/-! ## Bounds on a point's block elements as bounds on argument elements -/

/-- `blk_forall` for a condition given coordinate by coordinate. -/
theorem blk_forall3 (c : Dev nD) (t : Fin cfg0.N) (A B C : ℕ → Prop) (z : EReal) :
    (∀ y : S1x16x64x4096.Idx, A (y 2).val → B ((y 3).val / 64) → C ((y 3).val % 64) → blk m c t y ≤ z)
      ↔ (∀ i : S4x64x64x64x64.Idx, (i 0).val = t.val / 4 → (i 1).val / 16 = t.val % 4 →
          A (i 2).val → B (i 3).val → C (i 4).val → X m c i ≤ z) := by
  have h := blk_forall m c t (fun w d ch => A w ∧ B d ∧ C ch) z
  constructor
  · intro H i h0 h1 a b c'
    exact h.mp (fun y hy => H y hy.1 hy.2.1 hy.2.2) i h0 h1 ⟨a, b, c'⟩
  · intro H y a b c'
    exact h.mpr (fun i h0 h1 hi => H i h0 h1 hi.1 hi.2.1 hi.2.2) y ⟨a, b, c'⟩

/-- and for a condition on the channel alone. -/
theorem blk_forall1 (c : Dev nD) (t : Fin cfg0.N) (C : ℕ → Prop) (z : EReal) :
    (∀ y : S1x16x64x4096.Idx, C ((y 3).val % 64) → blk m c t y ≤ z)
      ↔ (∀ i : S4x64x64x64x64.Idx, (i 0).val = t.val / 4 → (i 1).val / 16 = t.val % 4 → C (i 4).val → X m c i ≤ z) :=
  blk_forall m c t (fun _ _ ch => C ch) z

/-! ## The finest scale -/

theorem idx3 : ∀ t : Fin cfg0.N, win0_3.index t 0 = t.val / 4 ∧ win0_3.index t 1 = t.val % 4 ∧ win0_3.index t 2 = 0
    ∧ win0_3.index t 3 = 0 ∧ win0_3.index t 4 = 0 :=
  (by decide +kernel : ∀ t : Fin grid0.N, win0_3.index t 0 = t.val / 4 ∧ win0_3.index t 1 = t.val % 4 ∧ win0_3.index t 2 = 0
    ∧ win0_3.index t 3 = 0 ∧ win0_3.index t 4 = 0)

/-- An index of the array is in point `t`'s block iff each coordinate is in the block's range on its axis. -/
theorem mem_blk3 (t : Fin cfg0.N) (i : S4x4x4x4x64.Idx) :
    i ∈ ((cfg0.win 3).blk t).view.set ↔ ∀ a : Fin 5, win0_3.index t a * S1x1x4x4x64.size a ≤ (i a).val
      ∧ (i a).val < win0_3.index t a * S1x1x4x4x64.size a + S1x1x4x4x64.size a := by
  show i ∈ ((View.whole main_v1_2).slice (win0_3.rect t)).set ↔ _
  rw [View.set_slice_whole, Rect.mem_set_unit]
  exact Iff.rfl

/-- What point `t` writes back at the finest scale, by its bounds. -/
theorem flushedP3 (c : Dev nD) (t : Fin cfg0.N) (Y : S1x1x4x4x64.Idx) (z : EReal) :
    k0_pay3 (F := Ideal) (k0_pay5 (blk m c t)) Y ≤ z ↔ ∀ k : S4x64x64x64x64.Idx, (k 0).val = t.val / 4 → (k 1).val / 16 = t.val % 4 →
      (k 2).val / 16 = (Y 2).val → (k 3).val / 16 = (Y 3).val → (k 4).val = (Y 4).val → X m c k ≤ z :=
  (pay3_le (blk m c t) Y z).trans
    (blk_forall3 m c t (fun w => w / 16 = (Y 2).val) (fun d => d / 16 = (Y 3).val) (fun ch => ch = (Y 4).val) z)

/-- The finest scale's window is uncut: what a point writes back is what the body left. -/
theorem flushed3_eq (c : Dev nD) (t : Fin cfg0.N) :
    (dats m 0 c).flushed 3 t = k0_pay3 (F := Ideal) (k0_pay5 (blk m c t)) := by
  show (cfg0.win 3).cut (grid0.coords t) ((dats m 0 c).after 3 t) = _
  rw [after3]
  generalize k0_pay3 (F := Ideal) (k0_pay5 (iblk m c 0 t)) = v
  rfl

theorem pool4 (c : Dev nD) : Cert.Pool.IsPool 4 16 (X m c) ((dats m 0 c).arrAt 3 cfg0.N) := by
  intro j z
  have hN : cfg0.N = 16 := N_0
  have j0 : (j 0).val < 4 := (j 0).isLt
  have j1 : (j 1).val < 4 := (j 1).isLt
  have j2 : (j 2).val < 4 := (j 2).isLt
  have j3 : (j 3).val < 4 := (j 3).isLt
  have j4 : (j 4).val < 64 := (j 4).isLt
  obtain ⟨t, ht⟩ : ∃ t : Fin cfg0.N, t.val = 4 * (j 0).val + (j 1).val := ⟨⟨4 * (j 0).val + (j 1).val, by omega⟩, rfl⟩
  have hmem : j ∈ ((cfg0.win 3).blk t).view.set := by
    rw [mem_blk3]
    obtain ⟨e0, e1, e2, e3, e4⟩ := idx3 t
    have b0 : win0_3.index t 0 * 1 ≤ (j 0).val ∧ (j 0).val < win0_3.index t 0 * 1 + 1 := by rw [e0]; omega
    have b1 : win0_3.index t 1 * 1 ≤ (j 1).val ∧ (j 1).val < win0_3.index t 1 * 1 + 1 := by rw [e1]; omega
    have b2 : win0_3.index t 2 * 4 ≤ (j 2).val ∧ (j 2).val < win0_3.index t 2 * 4 + 4 := by rw [e2]; omega
    have b3 : win0_3.index t 3 * 4 ≤ (j 3).val ∧ (j 3).val < win0_3.index t 3 * 4 + 4 := by rw [e3]; omega
    have b4 : win0_3.index t 4 * 64 ≤ (j 4).val ∧ (j 4).val < win0_3.index t 4 * 64 + 64 := by rw [e4]; omega
    intro a; fin_cases a
    · exact b0
    · exact b1
    · exact b2
    · exact b3
    · exact b4
  refine (dats m 0 c).arrAt_forall_of_flushed 3
    (fun i (v : EReal) => ∀ z : EReal, v ≤ z ↔ ∀ k : S4x64x64x64x64.Idx, (k 0).val = (i 0).val → (k 1).val / 16 = (i 1).val →
      (k 2).val / 16 = (i 2).val → (k 3).val / 16 = (i 3).val → (k 4).val = (i 4).val → X m c k ≤ z) ?_ cfg0.N t j t.isLt (flush0_3 t) hmem z
  intro t _ Y z
  obtain ⟨e0, e1, e2, e3, e4⟩ := idx3 t
  have y0 : (Y 0).val < 1 := (Y 0).isLt
  have y1 : (Y 1).val < 1 := (Y 1).isLt
  have E0 : ((((cfg0.win 3).blk t).view.emb Y) 0).val = t.val / 4 := by
    show win0_3.index t 0 * 1 + 1 * (Y 0).val = _; rw [e0]; omega
  have E1 : ((((cfg0.win 3).blk t).view.emb Y) 1).val = t.val % 4 := by
    show win0_3.index t 1 * 1 + 1 * (Y 1).val = _; rw [e1]; omega
  have E2 : ((((cfg0.win 3).blk t).view.emb Y) 2).val = (Y 2).val := by
    show win0_3.index t 2 * 4 + 1 * (Y 2).val = _; rw [e2]; omega
  have E3 : ((((cfg0.win 3).blk t).view.emb Y) 3).val = (Y 3).val := by
    show win0_3.index t 3 * 4 + 1 * (Y 3).val = _; rw [e3]; omega
  have E4 : ((((cfg0.win 3).blk t).view.emb Y) 4).val = (Y 4).val := by
    show win0_3.index t 4 * 64 + 1 * (Y 4).val = _; rw [e4]; omega
  have hv := flushedP3 m c t Y z
  rw [flushed3_eq m c t, E0, E1, E2, E3, E4]
  generalize k0_pay3 (F := Ideal) (k0_pay5 (blk m c t)) Y = v at hv ⊢
  exact hv

/-! ## The middle scale -/

theorem idx2 : ∀ t : Fin cfg0.N, win0_2.index t 0 = t.val / 4 ∧ win0_2.index t 1 = t.val % 4 / 2 ∧ win0_2.index t 2 = 0
    ∧ win0_2.index t 3 = 0 ∧ win0_2.index t 4 = 0 :=
  (by decide +kernel : ∀ t : Fin grid0.N, win0_2.index t 0 = t.val / 4 ∧ win0_2.index t 1 = t.val % 4 / 2 ∧ win0_2.index t 2 = 0
    ∧ win0_2.index t 3 = 0 ∧ win0_2.index t 4 = 0)

theorem mem_blk2 (t : Fin cfg0.N) (i : S4x2x2x2x64.Idx) :
    i ∈ ((cfg0.win 2).blk t).view.set ↔ ∀ a : Fin 5, win0_2.index t a * S1x1x2x2x64.size a ≤ (i a).val
      ∧ (i a).val < win0_2.index t a * S1x1x2x2x64.size a + S1x1x2x2x64.size a := by
  show i ∈ ((View.whole main_v1_1).slice (win0_2.rect t)).set ↔ _
  rw [View.set_slice_whole, Rect.mem_set_unit]
  exact Iff.rfl

theorem o2At_even (c : Dev nD) (n : ℕ) (hn : n < cfg0.N) (h : n % 2 = 0) :
    o2At m c n hn = k0_pay1 (F := Ideal) (k0_pay6 (blk m c ⟨n, hn⟩)) := o2At_reset m c ⟨n, hn⟩ h
theorem o2At_odd (c : Dev nD) (n : ℕ) (hn : n < cfg0.N) (h : ¬n % 2 = 0) :
    o2At m c n hn = k0_pay2 (F := Ideal) (k0_pay6 (blk m c ⟨n, hn⟩)) (o2At m c (n - 1) (Nat.lt_of_le_of_lt (Nat.sub_le _ _) hn)) :=
  o2At_join m c ⟨n, hn⟩ h

theorem flushed2_eq (c : Dev nD) (t : Fin cfg0.N) : (dats m 0 c).flushed 2 t = o2At m c t.val t.isLt := by
  show (cfg0.win 2).cut (grid0.coords t) ((dats m 0 c).after 2 t) = _
  rw [after2]
  generalize o2At m c t.val t.isLt = v
  rfl

/-- What an odd point writes back at the middle scale: the join of its own pooled block with the even point's before it. -/
theorem flushedP2 (c : Dev nD) (t : Fin cfg0.N) (ht : ¬t.val % 2 = 0) (Y : S1x1x2x2x64.Idx) (z : EReal) :
    o2At m c t.val t.isLt Y ≤ z ↔ ∀ k : S4x64x64x64x64.Idx, (k 0).val = t.val / 4 → (k 1).val / 32 = t.val % 4 / 2 →
      (k 2).val / 32 = (Y 2).val → (k 3).val / 32 = (Y 3).val → (k 4).val = (Y 4).val → X m c k ≤ z := by
  have hN : t.val < 16 := lt_of_lt_of_eq t.isLt (show cfg0.N = 16 from N_0)
  have hp : t.val - 1 < cfg0.N := Nat.lt_of_le_of_lt (Nat.sub_le _ _) t.isLt
  rw [o2At_odd m c t.val t.isLt ht, o2At_even m c (t.val - 1) hp (by omega)]
  refine ((pay2_le (blk m c ⟨t.val, t.isLt⟩) _ Y z).trans (and_congr
    ((pay1_le (blk m c ⟨t.val - 1, hp⟩) Y z).trans
      (blk_forall3 m c ⟨t.val - 1, hp⟩ (fun w => w / 32 = (Y 2).val) (fun d => d / 32 = (Y 3).val) (fun ch => ch = (Y 4).val) z))
    (blk_forall3 m c ⟨t.val, t.isLt⟩ (fun w => w / 32 = (Y 2).val) (fun d => d / 32 = (Y 3).val) (fun ch => ch = (Y 4).val) z))).trans ?_
  constructor
  · rintro ⟨h1, h2⟩ k k0 k1 k2 k3 k4
    have kb : (k 1).val < 64 := (k 1).isLt
    by_cases hk : (k 1).val / 16 = t.val % 4
    · exact h2 k k0 hk k2 k3 k4
    · exact h1 k (show (k 0).val = (t.val - 1) / 4 by omega) (show (k 1).val / 16 = (t.val - 1) % 4 by omega) k2 k3 k4
  · intro h
    refine ⟨fun i i0 i1 i2 i3 i4 => h i ?_ ?_ i2 i3 i4, fun i i0 i1 i2 i3 i4 => h i i0 ?_ i2 i3 i4⟩
    · have : (i 0).val = (t.val - 1) / 4 := i0; omega
    · have : (i 1).val / 16 = (t.val - 1) % 4 := i1; omega
    · have : (i 1).val / 16 = t.val % 4 := i1; omega

theorem pool2 (c : Dev nD) : Cert.Pool.IsPool 2 32 (X m c) ((dats m 0 c).arrAt 2 cfg0.N) := by
  intro j z
  have hN : cfg0.N = 16 := N_0
  have j0 : (j 0).val < 4 := (j 0).isLt
  have j1 : (j 1).val < 2 := (j 1).isLt
  have j2 : (j 2).val < 2 := (j 2).isLt
  have j3 : (j 3).val < 2 := (j 3).isLt
  have j4 : (j 4).val < 64 := (j 4).isLt
  obtain ⟨t, ht⟩ : ∃ t : Fin cfg0.N, t.val = 4 * (j 0).val + 2 * (j 1).val + 1 := ⟨⟨4 * (j 0).val + 2 * (j 1).val + 1, by omega⟩, rfl⟩
  have hmem : j ∈ ((cfg0.win 2).blk t).view.set := by
    rw [mem_blk2]
    obtain ⟨e0, e1, e2, e3, e4⟩ := idx2 t
    have b0 : win0_2.index t 0 * 1 ≤ (j 0).val ∧ (j 0).val < win0_2.index t 0 * 1 + 1 := by rw [e0]; omega
    have b1 : win0_2.index t 1 * 1 ≤ (j 1).val ∧ (j 1).val < win0_2.index t 1 * 1 + 1 := by rw [e1]; omega
    have b2 : win0_2.index t 2 * 2 ≤ (j 2).val ∧ (j 2).val < win0_2.index t 2 * 2 + 2 := by rw [e2]; omega
    have b3 : win0_2.index t 3 * 2 ≤ (j 3).val ∧ (j 3).val < win0_2.index t 3 * 2 + 2 := by rw [e3]; omega
    have b4 : win0_2.index t 4 * 64 ≤ (j 4).val ∧ (j 4).val < win0_2.index t 4 * 64 + 64 := by rw [e4]; omega
    intro a; fin_cases a
    · exact b0
    · exact b1
    · exact b2
    · exact b3
    · exact b4
  refine (dats m 0 c).arrAt_forall_of_flushed 2
    (fun i (v : EReal) => ∀ z : EReal, v ≤ z ↔ ∀ k : S4x64x64x64x64.Idx, (k 0).val = (i 0).val → (k 1).val / 32 = (i 1).val →
      (k 2).val / 32 = (i 2).val → (k 3).val / 32 = (i 3).val → (k 4).val = (i 4).val → X m c k ≤ z) ?_ cfg0.N t j t.isLt ((flush0_2 t).mpr (by omega)) hmem z
  intro t hfl Y z
  have hodd : ¬t.val % 2 = 0 := by have := (flush0_2 t).mp hfl; omega
  obtain ⟨e0, e1, e2, e3, e4⟩ := idx2 t
  have y0 : (Y 0).val < 1 := (Y 0).isLt
  have y1 : (Y 1).val < 1 := (Y 1).isLt
  have E0 : ((((cfg0.win 2).blk t).view.emb Y) 0).val = t.val / 4 := by
    show win0_2.index t 0 * 1 + 1 * (Y 0).val = _; rw [e0]; omega
  have E1 : ((((cfg0.win 2).blk t).view.emb Y) 1).val = t.val % 4 / 2 := by
    show win0_2.index t 1 * 1 + 1 * (Y 1).val = _; rw [e1]; omega
  have E2 : ((((cfg0.win 2).blk t).view.emb Y) 2).val = (Y 2).val := by
    show win0_2.index t 2 * 2 + 1 * (Y 2).val = _; rw [e2]; omega
  have E3 : ((((cfg0.win 2).blk t).view.emb Y) 3).val = (Y 3).val := by
    show win0_2.index t 3 * 2 + 1 * (Y 3).val = _; rw [e3]; omega
  have E4 : ((((cfg0.win 2).blk t).view.emb Y) 4).val = (Y 4).val := by
    show win0_2.index t 4 * 64 + 1 * (Y 4).val = _; rw [e4]; omega
  have hv := flushedP2 m c t hodd Y z
  rw [flushed2_eq m c t, E0, E1, E2, E3, E4]
  generalize o2At m c t.val t.isLt Y = v at hv ⊢
  exact hv

/-! ## The coarsest scale -/

theorem idx1 : ∀ t : Fin cfg0.N, win0_1.index t 0 = t.val / 4 ∧ win0_1.index t 1 = 0 ∧ win0_1.index t 2 = 0
    ∧ win0_1.index t 3 = 0 ∧ win0_1.index t 4 = 0 :=
  (by decide +kernel : ∀ t : Fin grid0.N, win0_1.index t 0 = t.val / 4 ∧ win0_1.index t 1 = 0 ∧ win0_1.index t 2 = 0
    ∧ win0_1.index t 3 = 0 ∧ win0_1.index t 4 = 0)

theorem mem_blk1 (t : Fin cfg0.N) (i : S4x1x1x1x64.Idx) :
    i ∈ ((cfg0.win 1).blk t).view.set ↔ ∀ a : Fin 5, win0_1.index t a * S1x1x1x1x64.size a ≤ (i a).val
      ∧ (i a).val < win0_1.index t a * S1x1x1x1x64.size a + S1x1x1x1x64.size a := by
  show i ∈ ((View.whole main_v1_0).slice (win0_1.rect t)).set ↔ _
  rw [View.set_slice_whole, Rect.mem_set_unit]
  exact Iff.rfl

theorem o1At_first (c : Dev nD) (n : ℕ) (hn : n < cfg0.N) (h : n % 4 = 0) :
    o1At m c n hn = k0_pay8 (F := Ideal) (blk m c ⟨n, hn⟩) := o1At_reset m c ⟨n, hn⟩ h
theorem o1At_later (c : Dev nD) (n : ℕ) (hn : n < cfg0.N) (h : ¬n % 4 = 0) :
    o1At m c n hn = k0_pay9 (F := Ideal) (blk m c ⟨n, hn⟩) (o1At m c (n - 1) (Nat.lt_of_le_of_lt (Nat.sub_le _ _) hn)) :=
  o1At_join m c ⟨n, hn⟩ h

theorem flushed1_eq (c : Dev nD) (t : Fin cfg0.N) : (dats m 0 c).flushed 1 t = o1At m c t.val t.isLt := by
  show (cfg0.win 1).cut (grid0.coords t) ((dats m 0 c).after 1 t) = _
  rw [after1]
  generalize o1At m c t.val t.isLt = v
  rfl

/-- What the last height block of a batch writes back at the coarsest scale: the join over all four height blocks. -/
theorem flushedP1 (c : Dev nD) (t : Fin cfg0.N) (ht : t.val % 4 = 3) (Y : S1x1x1x1x64.Idx) (z : EReal) :
    o1At m c t.val t.isLt Y ≤ z ↔ ∀ k : S4x64x64x64x64.Idx, (k 0).val = t.val / 4 → (k 4).val = (Y 4).val → X m c k ≤ z := by
  have hN : t.val < 16 := lt_of_lt_of_eq t.isLt (show cfg0.N = 16 from N_0)
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  rw [o1At_later m c t.val t.isLt (by omega), o1At_later m c (t.val - 1) h1 (by omega),
    o1At_later m c (t.val - 1 - 1) h2 (by omega), o1At_first m c (t.val - 1 - 1 - 1) h3 (by omega)]
  refine ((pay9_le (blk m c ⟨t.val, t.isLt⟩) _ Y z).trans (and_congr
    ((pay9_le (blk m c ⟨t.val - 1, h1⟩) _ Y z).trans (and_congr
      ((pay9_le (blk m c ⟨t.val - 1 - 1, h2⟩) _ Y z).trans (and_congr
        ((pay8_le (blk m c ⟨t.val - 1 - 1 - 1, h3⟩) Y z).trans
          (blk_forall1 m c ⟨t.val - 1 - 1 - 1, h3⟩ (fun ch => ch = (Y 4).val) z))
        (blk_forall1 m c ⟨t.val - 1 - 1, h2⟩ (fun ch => ch = (Y 4).val) z)))
      (blk_forall1 m c ⟨t.val - 1, h1⟩ (fun ch => ch = (Y 4).val) z)))
    (blk_forall1 m c ⟨t.val, t.isLt⟩ (fun ch => ch = (Y 4).val) z))).trans ?_
  constructor
  · rintro ⟨⟨⟨q3, q2⟩, q1⟩, q0⟩ k k0 k4
    have kb : (k 1).val < 64 := (k 1).isLt
    rcases (by omega : (k 1).val / 16 = 0 ∨ (k 1).val / 16 = 1 ∨ (k 1).val / 16 = 2 ∨ (k 1).val / 16 = 3) with h | h | h | h
    · exact q3 k (show (k 0).val = (t.val - 1 - 1 - 1) / 4 by omega) (show (k 1).val / 16 = (t.val - 1 - 1 - 1) % 4 by omega) k4
    · exact q2 k (show (k 0).val = (t.val - 1 - 1) / 4 by omega) (show (k 1).val / 16 = (t.val - 1 - 1) % 4 by omega) k4
    · exact q1 k (show (k 0).val = (t.val - 1) / 4 by omega) (show (k 1).val / 16 = (t.val - 1) % 4 by omega) k4
    · exact q0 k k0 (show (k 1).val / 16 = t.val % 4 by omega) k4
  · intro h
    refine ⟨⟨⟨fun i i0 _ i4 => h i ?_ i4, fun i i0 _ i4 => h i ?_ i4⟩, fun i i0 _ i4 => h i ?_ i4⟩, fun i i0 _ i4 => h i i0 i4⟩
    · have : (i 0).val = (t.val - 1 - 1 - 1) / 4 := i0; omega
    · have : (i 0).val = (t.val - 1 - 1) / 4 := i0; omega
    · have : (i 0).val = (t.val - 1) / 4 := i0; omega

theorem pool1 (c : Dev nD) : Cert.Pool.IsPool 1 64 (X m c) ((dats m 0 c).arrAt 1 cfg0.N) := by
  intro j z
  have hN : cfg0.N = 16 := N_0
  have j0 : (j 0).val < 4 := (j 0).isLt
  have j1 : (j 1).val < 1 := (j 1).isLt
  have j2 : (j 2).val < 1 := (j 2).isLt
  have j3 : (j 3).val < 1 := (j 3).isLt
  have j4 : (j 4).val < 64 := (j 4).isLt
  obtain ⟨t, ht⟩ : ∃ t : Fin cfg0.N, t.val = 4 * (j 0).val + 3 := ⟨⟨4 * (j 0).val + 3, by omega⟩, rfl⟩
  have hmem : j ∈ ((cfg0.win 1).blk t).view.set := by
    rw [mem_blk1]
    obtain ⟨e0, e1, e2, e3, e4⟩ := idx1 t
    have b0 : win0_1.index t 0 * 1 ≤ (j 0).val ∧ (j 0).val < win0_1.index t 0 * 1 + 1 := by rw [e0]; omega
    have b1 : win0_1.index t 1 * 1 ≤ (j 1).val ∧ (j 1).val < win0_1.index t 1 * 1 + 1 := by rw [e1]; omega
    have b2 : win0_1.index t 2 * 1 ≤ (j 2).val ∧ (j 2).val < win0_1.index t 2 * 1 + 1 := by rw [e2]; omega
    have b3 : win0_1.index t 3 * 1 ≤ (j 3).val ∧ (j 3).val < win0_1.index t 3 * 1 + 1 := by rw [e3]; omega
    have b4 : win0_1.index t 4 * 64 ≤ (j 4).val ∧ (j 4).val < win0_1.index t 4 * 64 + 64 := by rw [e4]; omega
    intro a; fin_cases a
    · exact b0
    · exact b1
    · exact b2
    · exact b3
    · exact b4
  have H := (dats m 0 c).arrAt_forall_of_flushed 1
    (fun i (v : EReal) => ∀ z : EReal, v ≤ z ↔ ∀ k : S4x64x64x64x64.Idx, (k 0).val = (i 0).val → (k 4).val = (i 4).val → X m c k ≤ z)
    ?_ cfg0.N t j t.isLt ((flush0_1 t).mpr (by omega)) hmem z
  · refine H.trans ⟨fun h i i0 _ _ _ i4 => h i i0 i4, fun h k k0 k4 => ?_⟩
    have k1 : (k 1).val < 64 := (k 1).isLt
    have k2 : (k 2).val < 64 := (k 2).isLt
    have k3 : (k 3).val < 64 := (k 3).isLt
    exact h k k0 (by omega) (by omega) (by omega) k4
  intro t hfl Y z
  have h3 : t.val % 4 = 3 := (flush0_1 t).mp hfl
  obtain ⟨e0, e1, e2, e3, e4⟩ := idx1 t
  have y0 : (Y 0).val < 1 := (Y 0).isLt
  have E0 : ((((cfg0.win 1).blk t).view.emb Y) 0).val = t.val / 4 := by
    show win0_1.index t 0 * 1 + 1 * (Y 0).val = _; rw [e0]; omega
  have E4 : ((((cfg0.win 1).blk t).view.emb Y) 4).val = (Y 4).val := by
    show win0_1.index t 4 * 64 + 1 * (Y 4).val = _; rw [e4]; omega
  have hv := flushedP1 m c t h3 Y z
  rw [flushed1_eq m c t, E0, E4]
  generalize o1At m c t.val t.isLt Y = v at hv ⊢
  exact hv

end Cert.KernelIdeal.KV

end
-- ==== Proof.KernelValue.lean ====
/-
  The kernel's run, read: the result buffer ends at the three pooled arrays flattened and joined, the argument unchanged.

  After the region, @main flattens each of the region's three result arrays to one row per batch and joins the rows along
  the channel axis. Those four lines read the arrays as the region leaves them — each at what its write-backs made it — so the
  result buffer is `joinedK` of the three final arrays; the argument array is none of them and no line writes it.
-/
import proofs.«115212_j73418170957951_2_alg».proof.Proof.FrameMain
import proofs.«115212_j73418170957951_2_alg».proof.Proof.ArrayValue

set_option maxRecDepth 16384

noncomputable section

namespace Cert.KernelIdeal.KV

open Cert.KernelIdeal Cert.KernelIdeal.Gen Cert.KernelIdeal.Frame
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- The three pooled arrays, each flattened to a row per batch, joined along the channel axis. -/
def joinedK (a : FVec Ideal S4x1x1x1x64 .f32) (b : FVec Ideal S4x2x2x2x64 .f32) (d : FVec Ideal S4x4x4x4x64 .f32) : FVec Ideal S4x4672 .f32 :=
  concatenate S4x4672 1 [⟨S4x64, shapeCast S4x64 a shapeCasts_S4x1x1x1x64_S4x64⟩, ⟨S4x512, shapeCast S4x512 b shapeCasts_S4x2x2x2x64_S4x512⟩,
    ⟨S4x4096, shapeCast S4x4096 d shapeCasts_S4x4x4x4x64_S4x4096⟩] concatenates_S4x64_S4x512_S4x4096_S4x4672_d1

section Stages
variable (G : Valuation τ sig (Elt Ideal))

/-- Each line after the region at its own result, in its operands' own words. -/
theorem stage_v2 :
    (reshape (τ := τ) (Val := Elt Ideal) main_v1_0 main_v2 rfl shapeCasts_S4x1x1x1x64_S4x64).result G (Proc.devRef .tc main_v2)
      = shapeCast S4x64 (G (Proc.devRef .tc main_v1_0)) shapeCasts_S4x1x1x1x64_S4x64 := by
  rw [reshape_result]; rfl
theorem stage_v3 :
    (reshape (τ := τ) (Val := Elt Ideal) main_v1_1 main_v3 rfl shapeCasts_S4x2x2x2x64_S4x512).result G (Proc.devRef .tc main_v3)
      = shapeCast S4x512 (G (Proc.devRef .tc main_v1_1)) shapeCasts_S4x2x2x2x64_S4x512 := by
  rw [reshape_result]; rfl
theorem stage_v4 :
    (reshape (τ := τ) (Val := Elt Ideal) main_v1_2 main_v4 rfl shapeCasts_S4x4x4x4x64_S4x4096).result G (Proc.devRef .tc main_v4)
      = shapeCast S4x4096 (G (Proc.devRef .tc main_v1_2)) shapeCasts_S4x4x4x4x64_S4x4096 := by
  rw [reshape_result]; rfl
theorem stage_v5 :
    (nary (τ := τ) (Val := Elt Ideal) ![main_v2, main_v3, main_v4] main_v5 (fun u => concatenate S4x4672 1 [⟨S4x64, u 0⟩, ⟨S4x512, u 1⟩, ⟨S4x4096, u 2⟩] concatenates_S4x64_S4x512_S4x4096_S4x4672_d1)).result G (Proc.devRef .tc main_v5)
      = concatenate S4x4672 1 [⟨S4x64, G (Proc.devRef .tc main_v2)⟩, ⟨S4x512, G (Proc.devRef .tc main_v3)⟩, ⟨S4x4096, G (Proc.devRef .tc main_v4)⟩] concatenates_S4x64_S4x512_S4x4096_S4x4672_d1 := by
  rw [nary_result]; rfl

end Stages

/-- What the four lines leave in the result buffer, from any contents `W` they start from. -/
theorem after_v5 (W : Valuation τ sig (Elt Ideal)) :
    after (hostOps1 (F := Ideal)) W (Proc.devRef .tc main_v5)
      = joinedK (W (Proc.devRef .tc main_v1_0)) (W (Proc.devRef .tc main_v1_1)) (W (Proc.devRef .tc main_v1_2)) := by
  simp only [after_cons, after_nil]
  rw [stage_v5]
  repeat (first
    | rw [stage_v2] | rw [stage_v3] | rw [stage_v4]
    | (rw [reshape_result_ne]; rotate_left; decide))
  generalize W (Proc.devRef .tc main_v1_0) = a
  generalize W (Proc.devRef .tc main_v1_1) = b
  generalize W (Proc.devRef .tc main_v1_2) = d
  unfold joinedK
  rfl

/-- After the lines that follow the region the result buffer holds the region's three final arrays, flattened and joined. -/
theorem tail_v5 (c : Dev nD) :
    Pipeline.afterTail₀ cfgs (dats m) 0 (V0 m) [hostOps1] c main_v5
      = joinedK ((dats m 0 c).arrAt 1 cfg0.N) ((dats m 0 c).arrAt 2 cfg0.N) ((dats m 0 c).arrAt 3 cfg0.N) := by
  have w1 : Pipeline.withArrays spec0 c (V0 m c) (fun w => (dats m 0 c).arrAt w cfg0.N) (Proc.devRef .tc main_v1_0)
      = (dats m 0 c).arrAt 1 cfg0.N := Pipeline.withArrays_arr spec0 launch0.win.arr_inj c _ _ 1
  have w2 : Pipeline.withArrays spec0 c (V0 m c) (fun w => (dats m 0 c).arrAt w cfg0.N) (Proc.devRef .tc main_v1_1)
      = (dats m 0 c).arrAt 2 cfg0.N := Pipeline.withArrays_arr spec0 launch0.win.arr_inj c _ _ 2
  have w3 : Pipeline.withArrays spec0 c (V0 m c) (fun w => (dats m 0 c).arrAt w cfg0.N) (Proc.devRef .tc main_v1_2)
      = (dats m 0 c).arrAt 3 cfg0.N := Pipeline.withArrays_arr spec0 launch0.win.arr_inj c _ _ 3
  unfold Pipeline.afterTail₀
  show after hostOps1 _ (Proc.devRef .tc main_v5) = _
  rw [after_v5, w1, w2, w3]

/-- THE RUN, READ: every weakly fair execution of @main terminates with the result buffer at the three final arrays
    flattened and joined, and the argument array unchanged. -/
theorem run_value : θ_run defs (onTc (τ := τ) (main (F := Ideal))) ⟨m, fun _ => 0, ρ⟩ (fun r => ∀ c : Dev nD,
      r.2.mem ((c.tc : Thread nD τ).loc main_v5)
          = joinedK ((dats m 0 c).arrAt 1 cfg0.N) ((dats m 0 c).arrAt 2 cfg0.N) ((dats m 0 c).arrAt 3 cfg0.N)
      ∧ r.2.mem ((c.tc : Thread nD τ).loc main_arg0) = m ((c.tc : Thread nD τ).loc main_arg0)) :=
  (θ_run defs _ _).mono (fun _ h c => ⟨((h c).2 main_v5 (by decide)).trans (tail_v5 m c),
      ((h c).2 main_arg0 (by decide)).trans (tail_arg0 m c)⟩) (run_main m ρ)

end Cert.KernelIdeal.KV

end
-- ==== Proof.RefValue.lean ====
/-
  The reference program's result, named and characterized.

  The program reshapes its argument `x` over (batch, height, width, depth, channel) = 4 × 64 × 64 × 64 × 64 three times to rank 8,
  splitting each spatial axis into `p` bins of `q = 64 / p` consecutive positions (`p = 1, 2, 4`), takes the maximum, from minus
  infinity, over the three within-bin axes, flattens each pooled array to one row per batch entry and joins the three rows.

  `red1`, `red2`, `red4` name the three reductions and `joined` the concatenation. `run`: every weakly fair execution ends with
  the result buffer at `joined (red1 x) (red2 x) (red4 x)` and the argument unchanged. `red1_pool`, `red2_pool`, `red4_pool`: each
  reduction is the pooled maximum, by its universal property (`Cert.Pool.IsPool`). The reduction at a result index is the fold
  of `max` from `⊥` over the source indices that drop to it; a fold of `max` is below a bound exactly when every folded entry
  is; and the rank-8 indices dropping to a result index are, read through the reshape, exactly the entries of its bin: the
  source index `(b, h, w, d, c)` and the rank-8 index `(b, h / q, h % q, w / q, w % q, d / q, d % q, c)` have the same row-major
  position, and dropping the within-bin axes of the latter leaves `(b, h / q, w / q, d / q, c)`.
-/
import proofs.«115212_j73418170957951_2_alg».proof.Proof.Gen.ReferenceIdeal
import proofs.«115212_j73418170957951_2_alg».proof.Proof.Pool
import Idealize.ShloMosaic.Lib.StableHlo.Run
import Idealize.ShloMosaic.PureOps.Ideal.Laws
import Idealize.ShloMosaic.PureOps.Reduce
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The maximum over the whole spatial extent: one bin per (batch, channel). -/
def red1 (x : FVec F S4x64x64x64x64 .f32) : FVec F S4x1x1x1x64 .f32 := Host.reduce FloatOps.maximumf (shapeCast _ x shapeCasts_S4x64x64x64x64_S4x1x64x1x64x1x64x64) (constant S_ .f32 0xFF800000#32) reducesTo_S4x1x64x1x64x1x64x64_S4x1x1x1x64_d2_4_6 h_S_
/-- The maximum over bins of 32 positions along each spatial axis. -/
def red2 (x : FVec F S4x64x64x64x64 .f32) : FVec F S4x2x2x2x64 .f32 := Host.reduce FloatOps.maximumf (shapeCast _ x shapeCasts_S4x64x64x64x64_S4x2x32x2x32x2x32x64) (constant S_ .f32 0xFF800000#32) reducesTo_S4x2x32x2x32x2x32x64_S4x2x2x2x64_d2_4_6 h_S_
/-- The maximum over bins of 16 positions along each spatial axis. -/
def red4 (x : FVec F S4x64x64x64x64 .f32) : FVec F S4x4x4x4x64 .f32 := Host.reduce FloatOps.maximumf (shapeCast _ x shapeCasts_S4x64x64x64x64_S4x4x16x4x16x4x16x64) (constant S_ .f32 0xFF800000#32) reducesTo_S4x4x16x4x16x4x16x64_S4x4x4x4x64_d2_4_6 h_S_
/-- The three pooled arrays, each flattened to one row per batch entry, side by side. -/
def joined (a : FVec F S4x1x1x1x64 .f32) (b : FVec F S4x2x2x2x64 .f32) (c : FVec F S4x4x4x4x64 .f32) : FVec F S4x4672 .f32 := concatenate S4x4672 1 [⟨S4x64, shapeCast _ a shapeCasts_S4x1x1x1x64_S4x64⟩, ⟨S4x512, shapeCast _ b shapeCasts_S4x2x2x2x64_S4x512⟩, ⟨S4x4096, shapeCast _ c shapeCasts_S4x4x4x4x64_S4x4096⟩] concatenates_S4x64_S4x512_S4x4096_S4x4672_d1

/-! ## The program as a list of operations -/

/-- The program's 13 operations, in order. -/
abbrev ops : List (HloOp τ sig (Elt F)) :=
  [ reshape main_arg0 main_v0 rfl shapeCasts_S4x64x64x64x64_S4x1x64x1x64x1x64x64,
    nullary main_cst (constant S_ .f32 0xFF800000#32),
    binary main_v0 main_cst main_v1 ((fun x v => Host.reduce FloatOps.maximumf x v reducesTo_S4x1x64x1x64x1x64x64_S4x1x1x1x64_d2_4_6 h_S_) : (⟨S4x1x64x1x64x1x64x64, .f32⟩ : BufTy).Contents (Elt F) → (⟨S_, .f32⟩ : BufTy).Contents (Elt F) → (⟨S4x1x1x1x64, .f32⟩ : BufTy).Contents (Elt F)),
    reshape main_v1 main_v2 rfl shapeCasts_S4x1x1x1x64_S4x64,
    reshape main_arg0 main_v3 rfl shapeCasts_S4x64x64x64x64_S4x2x32x2x32x2x32x64,
    nullary main_cst_0 (constant S_ .f32 0xFF800000#32),
    binary main_v3 main_cst_0 main_v4 ((fun x v => Host.reduce FloatOps.maximumf x v reducesTo_S4x2x32x2x32x2x32x64_S4x2x2x2x64_d2_4_6 h_S_) : (⟨S4x2x32x2x32x2x32x64, .f32⟩ : BufTy).Contents (Elt F) → (⟨S_, .f32⟩ : BufTy).Contents (Elt F) → (⟨S4x2x2x2x64, .f32⟩ : BufTy).Contents (Elt F)),
    reshape main_v4 main_v5 rfl shapeCasts_S4x2x2x2x64_S4x512,
    reshape main_arg0 main_v6 rfl shapeCasts_S4x64x64x64x64_S4x4x16x4x16x4x16x64,
    nullary main_cst_1 (constant S_ .f32 0xFF800000#32),
    binary main_v6 main_cst_1 main_v7 ((fun x v => Host.reduce FloatOps.maximumf x v reducesTo_S4x4x16x4x16x4x16x64_S4x4x4x4x64_d2_4_6 h_S_) : (⟨S4x4x16x4x16x4x16x64, .f32⟩ : BufTy).Contents (Elt F) → (⟨S_, .f32⟩ : BufTy).Contents (Elt F) → (⟨S4x4x4x4x64, .f32⟩ : BufTy).Contents (Elt F)),
    reshape main_v7 main_v8 rfl shapeCasts_S4x4x4x4x64_S4x4096,
    nary ![main_v2, main_v5, main_v8] main_v9 (fun u => concatenate S4x4672 1 [⟨S4x64, u 0⟩, ⟨S4x512, u 1⟩, ⟨S4x4096, u 2⟩] concatenates_S4x64_S4x512_S4x4096_S4x4672_d1) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., nullary_bufs_sub .., binary_bufs_sub .., reshape_bufs_sub .., reshape_bufs_sub .., nullary_bufs_sub .., binary_bufs_sub .., reshape_bufs_sub .., reshape_bufs_sub .., nullary_bufs_sub .., binary_bufs_sub .., reshape_bufs_sub .., nary_bufs_sub ..⟩

/-! ## Each reshape and the concatenation at its own result, in the operands' own words -/

section Stages
variable (G : Valuation τ sig (Elt F))

theorem stage_v0 :
    (reshape (τ := τ) (Val := Elt F) main_arg0 main_v0 rfl shapeCasts_S4x64x64x64x64_S4x1x64x1x64x1x64x64).result G (Proc.devRef .tc main_v0)
      = shapeCast S4x1x64x1x64x1x64x64 (G (Proc.devRef .tc main_arg0)) shapeCasts_S4x64x64x64x64_S4x1x64x1x64x1x64x64 := by
  rw [reshape_result]; rfl
theorem stage_v3 :
    (reshape (τ := τ) (Val := Elt F) main_arg0 main_v3 rfl shapeCasts_S4x64x64x64x64_S4x2x32x2x32x2x32x64).result G (Proc.devRef .tc main_v3)
      = shapeCast S4x2x32x2x32x2x32x64 (G (Proc.devRef .tc main_arg0)) shapeCasts_S4x64x64x64x64_S4x2x32x2x32x2x32x64 := by
  rw [reshape_result]; rfl
theorem stage_v6 :
    (reshape (τ := τ) (Val := Elt F) main_arg0 main_v6 rfl shapeCasts_S4x64x64x64x64_S4x4x16x4x16x4x16x64).result G (Proc.devRef .tc main_v6)
      = shapeCast S4x4x16x4x16x4x16x64 (G (Proc.devRef .tc main_arg0)) shapeCasts_S4x64x64x64x64_S4x4x16x4x16x4x16x64 := by
  rw [reshape_result]; rfl
theorem stage_v2 :
    (reshape (τ := τ) (Val := Elt F) main_v1 main_v2 rfl shapeCasts_S4x1x1x1x64_S4x64).result G (Proc.devRef .tc main_v2)
      = shapeCast S4x64 (G (Proc.devRef .tc main_v1)) shapeCasts_S4x1x1x1x64_S4x64 := by
  rw [reshape_result]; rfl
theorem stage_v5 :
    (reshape (τ := τ) (Val := Elt F) main_v4 main_v5 rfl shapeCasts_S4x2x2x2x64_S4x512).result G (Proc.devRef .tc main_v5)
      = shapeCast S4x512 (G (Proc.devRef .tc main_v4)) shapeCasts_S4x2x2x2x64_S4x512 := by
  rw [reshape_result]; rfl
theorem stage_v8 :
    (reshape (τ := τ) (Val := Elt F) main_v7 main_v8 rfl shapeCasts_S4x4x4x4x64_S4x4096).result G (Proc.devRef .tc main_v8)
      = shapeCast S4x4096 (G (Proc.devRef .tc main_v7)) shapeCasts_S4x4x4x4x64_S4x4096 := by
  rw [reshape_result]; rfl
theorem stage_v9 :
    (nary (τ := τ) (Val := Elt F) ![main_v2, main_v5, main_v8] main_v9 (fun u => concatenate S4x4672 1 [⟨S4x64, u 0⟩, ⟨S4x512, u 1⟩, ⟨S4x4096, u 2⟩] concatenates_S4x64_S4x512_S4x4096_S4x4672_d1)).result G (Proc.devRef .tc main_v9)
      = concatenate S4x4672 1 [⟨S4x64, G (Proc.devRef .tc main_v2)⟩, ⟨S4x512, G (Proc.devRef .tc main_v5)⟩, ⟨S4x4096, G (Proc.devRef .tc main_v8)⟩] concatenates_S4x64_S4x512_S4x4096_S4x4672_d1 := by
  rw [nary_result]; rfl

end Stages

/-- Rewrites each operation's result at its own result buffer to its function's value, and at any other reference to what
    was there, outermost first, until none applies. -/
local macro "results" : tactic =>
  `(tactic| repeat (first
      | rw [stage_v0] | rw [stage_v3] | rw [stage_v6] | rw [stage_v2] | rw [stage_v5] | rw [stage_v8]
      | rw [nullary_result] | rw [binary_result]
      | (rw [nullary_result_ne]; rotate_left; decide)
      | (rw [binary_result_ne]; rotate_left; decide)
      | (rw [reshape_result_ne]; rotate_left; decide)))

/-! ## The run -/

/-- What the result buffer holds after the thirteen operations: the three pooled arrays, flattened and joined. -/
theorem after_v9 (V : Valuation τ sig (Elt F)) :
    after (ops (F := F)) V (Proc.devRef .tc main_v9)
      = joined (red1 (V (Proc.devRef .tc main_arg0))) (red2 (V (Proc.devRef .tc main_arg0))) (red4 (V (Proc.devRef .tc main_arg0))) := by
  simp only [after_cons, after_nil]
  rw [stage_v9]
  results
  generalize V (Proc.devRef .tc main_arg0) = X
  unfold joined red1 red2 red4
  rfl

/-- No operation writes the argument. -/
theorem after_arg0 (V : Valuation τ sig (Elt F)) :
    after (ops (F := F)) V (Proc.devRef .tc main_arg0) = V (Proc.devRef .tc main_arg0) := by
  simp only [after_cons, after_nil]
  rw [nary_result_ne]; rotate_left; decide
  results

/-- On every device, for any float values, from any memory with zero counters: every weakly fair execution of the program
    terminates with the result buffer at the joined pooled arrays of the argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
          = joined (red1 (m ((c.tc : Thread nD τ).loc main_arg0))) (red2 (m ((c.tc : Thread nD τ).loc main_arg0)))
              (red4 (m ((c.tc : Thread nD τ).loc main_arg0)))
      ∧ r.2.mem ((c.tc : Thread nD τ).loc main_arg0) = m ((c.tc : Thread nD τ).loc main_arg0) :=
  (θ_run defs _ _).mono (fun _ h c => ⟨(h c main_v9).trans (after_v9 _), (h c main_arg0).trans (after_arg0 _)⟩)
    (run_seq scopedRefs_eq scopedSems_eq defs main (fun _ => ops) main_eq (fun _ => ops_sub) m ρ)

/-! ## The reduced arrays are pooled maxima -/

open Idealize.ShloMosaic.ValueIdx

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-8 index from its coordinates. -/
abbrev ix8 {n0 n1 n2 n3 n4 n5 n6 n7 : Nat} (a0 : Fin n0) (a1 : Fin n1) (a2 : Fin n2) (a3 : Fin n3) (a4 : Fin n4) (a5 : Fin n5)
    (a6 : Fin n6) (a7 : Fin n7) : (⟨8, ![n0, n1, n2, n3, n4, n5, n6, n7]⟩ : Shape).Idx :=
  fun g => match g with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- The row-major position of a rank-8 index given by its coordinates. -/
theorem rowMajor_ix8 {n0 n1 n2 n3 n4 n5 n6 n7 : Nat} (a0 : Fin n0) (a1 : Fin n1) (a2 : Fin n2) (a3 : Fin n3) (a4 : Fin n4)
    (a5 : Fin n5) (a6 : Fin n6) (a7 : Fin n7) :
    ((⟨8, ![n0, n1, n2, n3, n4, n5, n6, n7]⟩ : Shape).rowMajor (ix8 a0 a1 a2 a3 a4 a5 a6 a7)).val
      = ((((((a0.val * n1 + a1.val) * n2 + a2.val) * n3 + a3.val) * n4 + a4.val) * n5 + a5.val) * n6 + a6.val) * n7 + a7.val := by
  rw [rowMajor_val_eight]; rfl

/-- The row-major position of a rank-5 index given by its coordinates. -/
theorem rowMajor_ix5 {n0 n1 n2 n3 n4 : Nat} (a0 : Fin n0) (a1 : Fin n1) (a2 : Fin n2) (a3 : Fin n3) (a4 : Fin n4) :
    ((⟨5, ![n0, n1, n2, n3, n4]⟩ : Shape).rowMajor (ix5 a0 a1 a2 a3 a4)).val
      = (((a0.val * n1 + a1.val) * n2 + a2.val) * n3 + a3.val) * n4 + a4.val := by
  rw [Shape.rowMajor_val_five]; rfl

/-- The word `0xFF800000` is minus infinity, the least extended real. -/
theorem ofBits_neg_inf : Ideal.ofBits .f32 0xFF800000#32 = ⊥ := by simp [Ideal.ofBits, Ideal.ieee]

/-- A maximum-reduction from minus infinity, by its universal property: the result at `j` is below a bound exactly when
    every entry reduced into `j` is. -/
theorem reduce_max_le {s t : Shape} {axes : List (Fin s.rank)} (y : FVec Ideal s .f32) (hr : s.ReducesTo axes t) (j : t.Idx)
    (z : EReal) :
    Host.reduce (FloatOps.maximumf (F := Ideal) (φ := .f32)) y (constant (F := Ideal) S_ .f32 0xFF800000#32) hr h_S_ j ≤ z
      ↔ ∀ k : s.Idx, hr.drop k = j → y k ≤ z := by
  rw [Host.reduce_eq_fold]
  refine (Finset.fold_max_le (c := z)).trans ?_
  have hb : constant (F := Ideal) S_ .f32 0xFF800000#32 (Shape.Idx.first h_S_) = ⊥ := ofBits_neg_inf
  rw [hb]
  simp only [bot_le, true_and, Finset.mem_filter, Finset.mem_univ]

/-- Dropping axes 2, 4 and 6 of a rank-8 index keeps the coordinates on axes 0, 1, 3, 5 and 7, in order. -/
theorem drop_val {d : Fin 8 → Nat} {e : Fin 5 → Nat} (hr : (⟨8, d⟩ : Shape).ReducesTo [2, 4, 6] ⟨5, e⟩)
    (k : (⟨8, d⟩ : Shape).Idx) :
    (hr.drop k 0).val = (k 0).val ∧ (hr.drop k 1).val = (k 1).val ∧ (hr.drop k 2).val = (k 3).val
      ∧ (hr.drop k 3).val = (k 5).val ∧ (hr.drop k 4).val = (k 7).val :=
  ⟨rfl, rfl, rfl, rfl, rfl⟩

/-- Dropping axes 2, 4 and 6 of a rank-8 index, coordinate by coordinate. -/
theorem drop_eq_iff {d : Fin 8 → Nat} {e : Fin 5 → Nat} (hr : (⟨8, d⟩ : Shape).ReducesTo [2, 4, 6] ⟨5, e⟩)
    (k : (⟨8, d⟩ : Shape).Idx) (j : (⟨5, e⟩ : Shape).Idx) :
    hr.drop k = j ↔ (k 0).val = (j 0).val ∧ (k 1).val = (j 1).val ∧ (k 3).val = (j 2).val ∧ (k 5).val = (j 3).val
      ∧ (k 7).val = (j 4).val := by
  obtain ⟨d0, d1, d2, d3, d4⟩ := drop_val hr k
  constructor
  · rintro rfl
    exact ⟨d0.symm, d1.symm, d2.symm, d3.symm, d4.symm⟩
  · rintro ⟨h0, h1, h2, h3, h4⟩
    funext b
    apply Fin.ext
    match b with
    | ⟨0, _⟩ => exact d0.trans h0
    | ⟨1, _⟩ => exact d1.trans h1
    | ⟨2, _⟩ => exact d2.trans h2
    | ⟨3, _⟩ => exact d3.trans h3
    | ⟨4, _⟩ => exact d4.trans h4

/-- The argument shared by the three scales, `p` bins of `q` positions along each spatial axis (`p * q = 64`). After the
    universal property of the reduction, both directions move between a source index `(b, h, w, d, c)` and the rank-8 index
    `(b, h / q, h % q, w / q, w % q, d / q, d % q, c)`: the two have the same row-major position, so the reshape reads the one
    at the other, and dropping axes 2, 4, 6 of the latter leaves `(b, h / q, w / q, d / q, c)`, the bin. -/
local macro "pool_proof" p:num q:num : tactic => `(tactic| (
  intro j z
  rw [reduce_max_le]
  obtain ⟨jb, ji, jj, jk, jc, hj⟩ : ∃ (jb : Fin 4) (ji jj jk : Fin $p) (jc : Fin 64), j = ix5 jb ji jj jk jc :=
    ⟨j 0, j 1, j 2, j 3, j 4, eq_ix5 j⟩
  subst hj
  constructor
  · intro H i h0 h1 h2 h3 h4
    obtain ⟨b, h, w, d, c, hi⟩ : ∃ (b : Fin 4) (h w d c : Fin 64), i = ix5 b h w d c := ⟨i 0, i 1, i 2, i 3, i 4, eq_ix5 i⟩
    subst hi
    replace h0 : b.val = jb.val := h0
    replace h1 : h.val / $q = ji.val := h1
    replace h2 : w.val / $q = jj.val := h2
    replace h3 : d.val / $q = jk.val := h3
    replace h4 : c.val = jc.val := h4
    have hh := h.isLt; have hw := w.isLt; have hd := d.isLt
    have key := H (ix8 b ⟨h.val / $q, by omega⟩ ⟨h.val % $q, by omega⟩ ⟨w.val / $q, by omega⟩ ⟨w.val % $q, by omega⟩
      ⟨d.val / $q, by omega⟩ ⟨d.val % $q, by omega⟩ c) ((drop_eq_iff _ _ _).2 ⟨h0, h1, h2, h3, h4⟩)
    refine le_of_eq_of_le (Eq.symm (shapeCast_apply _ _ _ (ix5 b h w d c) ?_)) key
    rw [rowMajor_ix5, rowMajor_ix8]
    dsimp only
    omega
  · intro H k hk
    obtain ⟨a0, a1, a2, a3, a4, a5, a6, a7, hk8⟩ : ∃ (a0 : Fin 4) (a1 : Fin $p) (a2 : Fin $q) (a3 : Fin $p) (a4 : Fin $q)
        (a5 : Fin $p) (a6 : Fin $q) (a7 : Fin 64), k = ix8 a0 a1 a2 a3 a4 a5 a6 a7 :=
      ⟨k 0, k 1, k 2, k 3, k 4, k 5, k 6, k 7, eq_ix8 k⟩
    subst hk8
    obtain ⟨h0, h1, h2, h3, h4⟩ := (drop_eq_iff _ _ _).1 hk
    replace h0 : a0.val = jb.val := h0
    replace h1 : a1.val = ji.val := h1
    replace h2 : a3.val = jj.val := h2
    replace h3 : a5.val = jk.val := h3
    replace h4 : a7.val = jc.val := h4
    have l1 := a1.isLt; have l2 := a2.isLt; have l3 := a3.isLt; have l4 := a4.isLt; have l5 := a5.isLt; have l6 := a6.isLt
    have c1 : (a1.val * $q + a2.val) / $q = ji.val := by omega
    have c2 : (a3.val * $q + a4.val) / $q = jj.val := by omega
    have c3 : (a5.val * $q + a6.val) / $q = jk.val := by omega
    refine le_of_eq_of_le (shapeCast_apply _ _ _
      (ix5 a0 ⟨a1.val * $q + a2.val, by omega⟩ ⟨a3.val * $q + a4.val, by omega⟩ ⟨a5.val * $q + a6.val, by omega⟩ a7) ?_)
      (H _ h0 c1 c2 c3 h4)
    rw [rowMajor_ix5, rowMajor_ix8]
    dsimp only
    omega))

/-- At scale 1 the reduced array is the maximum over the whole spatial extent. -/
theorem red1_pool (x : FVec Ideal S4x64x64x64x64 .f32) : Cert.Pool.IsPool 1 64 x (red1 (F := Ideal) x) := by
  unfold red1
  pool_proof 1 64

/-- At scale 2 the reduced array is the maximum over bins of 32 positions along height, width and depth. -/
theorem red2_pool (x : FVec Ideal S4x64x64x64x64 .f32) : Cert.Pool.IsPool 2 32 x (red2 (F := Ideal) x) := by
  unfold red2
  pool_proof 2 32

/-- At scale 4 the reduced array is the maximum over bins of 16 positions along height, width and depth. -/
theorem red4_pool (x : FVec Ideal S4x64x64x64x64 .f32) : Cert.Pool.IsPool 4 16 x (red4 (F := Ideal) x) := by
  unfold red4
  pool_proof 4 16

end Cert.ReferenceIdeal.RefValue

end
-- ==== Proof.lean ====
/-
  The certificate of a spatial-pyramid max-pooling kernel against its jnp reference, over the extended reals.

  For an input `x` over (batch 4, height 64, width 64, depth 64, channel 64) both programs return, per batch, the channel
  vectors of the maxima of `x` over the cells of a 1 × 1 × 1, a 2 × 2 × 2 and a 4 × 4 × 4 partition of the volume, flattened and
  joined. The reference reshapes the volume into cells and takes one maximum over the three within-cell axes per scale. The
  kernel walks the volume in sixteen steps (batch, block of sixteen heights): per step it takes the maximum over the sixteen
  heights, then over 16 × 16 width-depth cells (the finest scale), pools those 2 × 2 twice for the coarser scales, and across the
  height blocks of one cell either starts the cell's accumulator afresh or joins into it by `max`.

  A maximum over a finite set of extended reals is determined by its upper bounds: `v` is the maximum of a cell iff, for every
  `z`, `v ≤ z` exactly when every entry of the cell is `≤ z` (Pool: `IsPool`, unique). Each of the kernel's three result arrays has
  this property (ArrayValue, from the body's stored values in Payload and the run of the launch in FrameBody … FrameMain), and so
  has each of the reference's three reductions (RefValue); hence they are equal, and both programs finish by the same flattening
  and joining of them. Nothing depends on the inputs being finite: only the order of the extended reals is used. The
  statement's conjunct on the kernel's idealization is `True` (the ledger of rewrites it restates is empty). The three frames: the kernel's at either
  float instance is the launch theorem over the body's run at every grid point (FrameMain, KFrameMain); the reference's is its
  run with the result dropped.
-/
import proofs.«115212_j73418170957951_2_alg».proof.Defs
import proofs.«115212_j73418170957951_2_alg».proof.Proof.Gen.Kernel
import proofs.«115212_j73418170957951_2_alg».proof.Proof.Gen.KernelIdeal
import proofs.«115212_j73418170957951_2_alg».proof.Proof.Gen.ReferenceIdeal
import proofs.«115212_j73418170957951_2_alg».proof.Proof.Gen.Pre_finite_inputs
import proofs.«115212_j73418170957951_2_alg».proof.Proof.KFrameMain
import proofs.«115212_j73418170957951_2_alg».proof.Proof.FrameMain
import proofs.«115212_j73418170957951_2_alg».proof.Proof.KernelValue
import proofs.«115212_j73418170957951_2_alg».proof.Proof.RefValue
import proofs.«115212_j73418170957951_2_alg».proof.Proof.Pool

noncomputable section

namespace Cert.Proof

open Idealize.ShloMosaic Idealize.SL.Sem

/-- The word-level kernel runs to the end, faults nowhere and leaves its argument unchanged. -/
theorem frame_k : Cert.frame_Kernel := fun m ρ _ => Cert.Kernel.Frame.frame m ρ

/-- So does the kernel read at the extended reals. -/
theorem frame_ki : Cert.frame_KernelIdeal := fun m ρ _ => Cert.KernelIdeal.Frame.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both programs end by flattening the three pooled arrays and joining them: one function of the three arrays. -/
theorem joined_eq (a : FVec Ideal Cert.KernelIdeal.S4x1x1x1x64 .f32) (b : FVec Ideal Cert.KernelIdeal.S4x2x2x2x64 .f32)
    (d : FVec Ideal Cert.KernelIdeal.S4x4x4x4x64 .f32) :
    Cert.ReferenceIdeal.RefValue.joined (F := Ideal) a b d = Cert.KernelIdeal.KV.joinedK a b d := rfl

/-- At the extended reals the kernel's result is the three final arrays of its region, flattened and joined, and the
    reference's the three reductions of the same argument, flattened and joined; array by array the two are the pooled
    maximum of the argument at one scale, which is unique. -/
theorem algebraic : Cert.algebraic_KernelIdeal_ReferenceIdeal := by
  intro m ρ m' ρ' _ hagree
  refine ⟨_, Cert.KernelIdeal.KV.run_value m ρ, ?_⟩
  refine (θ_run Cert.ReferenceIdeal.defs _ _).mono (fun _ h c => ⟨(h c).1.trans ?_, (h c).2⟩)
    (Cert.ReferenceIdeal.RefValue.run (F := Ideal) m' ρ')
  rw [hagree c]
  rw [← (Cert.KernelIdeal.KV.pool1 m c).unique (Cert.ReferenceIdeal.RefValue.red1_pool _),
    ← (Cert.KernelIdeal.KV.pool2 m c).unique (Cert.ReferenceIdeal.RefValue.red2_pool _),
    ← (Cert.KernelIdeal.KV.pool4 m c).unique (Cert.ReferenceIdeal.RefValue.red4_pool _)]
  exact joined_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
